-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S2 .f32) (main_v98 : IVec S_ 1) (main_v101 : IVec S128x2 1) (main_c_39 : IVec S_ 1) : IVec S_ 1 :=
  let main_v102 : IVec S_ 1 := (fun x v => Host.reduce IntOp.andi x v reducesTo_S128x2_S_d0_1 h_S_) main_v101 main_c_39
  let main_v103 : IVec S_ 1 := andi main_v98 main_v102
  let main_v104 : FVec F S2 .f32 := Host.absf main_arg23
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg20 : FVec F S128 .f32) (main_arg21 : FVec F S128 .f32) (main_arg22 : FVec F S128x2 .f32) (main_arg23 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x2 .f32 := Host.absf main_arg22
  let main_cst_38 : FVec F S_ .f32 := constant S_ .f32 0x7F800000#32
  let main_v100 : FVec F S128x2 .f32 := broadcastInDim S128x2 ![] bcast_S_S128x2 main_cst_38
  let main_v101 : IVec S128x2 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x2 .f32) (main_arg23 : FVec F S2 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x2 .f32) (main_arg23 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x2 .f32) (main_arg23 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x2 .f32) (main_arg23 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x2 .f32) (main_arg23 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 157
  | .vmem => 46
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128, .f32⟩
  | 19 => ⟨S128, .f32⟩
  | 20 => ⟨S128, .f32⟩
  | 21 => ⟨S128, .f32⟩
  | 22 => ⟨S128x2, .f32⟩
  | 23 => ⟨S2, .f32⟩
  | 24 => ⟨S1x1600000, .i32⟩
  | 25 => ⟨S1600000, .i32⟩
  | 26 => ⟨S100000, .i32⟩
  | 27 => ⟨S1700000, .i32⟩
  | 28 => ⟨S1x1600000, .i32⟩
  | 29 => ⟨S1600000, .i32⟩
  | 30 => ⟨S100000, .i32⟩
  | 31 => ⟨S1700000, .i32⟩
  | 32 => ⟨S_, .f32⟩
  | 33 => ⟨S100000, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000, .f32⟩
  | 69 => ⟨S1700000, .f32⟩
  | 70 => ⟨S100000x128, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S100000x128, .f32⟩
  | 93 => ⟨S100000x128, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S100000x128, .f32⟩
  | 116 => ⟨S100000x128, .f32⟩
  | 117 => ⟨S1700000x1, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x128, .f32⟩
  | _ => ⟨S100000x128, .f32⟩

abbrev hbmTy0_1 (i : Nat) : BufTy := match i % 128 with
  | 0 => ⟨S1700000x128, .f32⟩
  | 1 => ⟨S_, .f32⟩
  | 2 => ⟨S100000x128, .f32⟩
  | 3 => ⟨S1700000x1, .i32⟩
  | 4 => ⟨S100000x128, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S100000x128, .f32⟩
  | 11 => ⟨S_, .f32⟩
  | 12 => ⟨S512x128, .f32⟩
  | 13 => ⟨S100000x1, .i32⟩
  | 14 => ⟨S512x128, .f32⟩
  | 15 => ⟨S_, .f32⟩
  | 16 => ⟨S100000, .f32⟩
  | 17 => ⟨S_, .f32⟩
  | 18 => ⟨S512, .f32⟩
  | 19 => ⟨S100000x1, .i32⟩
  | 20 => ⟨S512, .f32⟩
  | 21 => ⟨S_, .f32⟩
  | 22 => ⟨S512, .f32⟩
  | 23 => ⟨S512, .f32⟩
  | 24 => ⟨S512x1, .f32⟩
  | 25 => ⟨S512x128, .f32⟩
  | 26 => ⟨S512x128, .f32⟩
  | 27 => ⟨S1x2, .f32⟩
  | 28 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S512x128, .f32⟩
  | .local _ .vmem, ⟨43, _⟩ => ⟨S128x2, .f32⟩
  | .local _ .vmem, ⟨44, _⟩ => ⟨S1x2, .f32⟩
  | .local _ .vmem, ⟨45, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v18 : Ref sig .tc := ⟨.hbm, 49, rfl⟩
abbrev main_c : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_7 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_10 : Ref sig .tc := ⟨.hbm, 95, rfl⟩
abbrev main_v57 : Ref sig .tc := ⟨.hbm, 96, rfl⟩
abbrev main_v58 : Ref sig .tc := ⟨.hbm, 97, rfl⟩
abbrev main_c_11 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_12 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_13 : Ref sig .tc := ⟨.hbm, 118, rfl⟩
abbrev main_v77 : Ref sig .tc := ⟨.hbm, 119, rfl⟩
abbrev main_v78 : Ref sig .tc := ⟨.hbm, 120, rfl⟩
abbrev main_c_14 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_15 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_16 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_17 : Ref sig .tc := ⟨.hbm, 143, rfl⟩
abbrev main_v98 : Ref sig .tc := ⟨.hbm, 144, rfl⟩
abbrev main_cst_18 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_19 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem1_0 : DmaSem sig := 43
abbrev cc6_sem2_0 : DmaSem sig := 44
abbrev cc6_sem3_0 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x2.size a ≤ S512x2.size a
  hwx6_3 : ∀ i : grid6.Coords, EltTy.bits .f32 = 32 ∨ (Rect.block (s := S512x2) S512x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v88) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v94) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v106) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v107) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v108) S512x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128, .f32⟩
  | 19 => ⟨S128, .f32⟩
  | 20 => ⟨S128, .f32⟩
  | 21 => ⟨S128, .f32⟩
  | 22 => ⟨S128x2, .f32⟩
  | 23 => ⟨S2, .f32⟩
  | 24 => ⟨S1x1600000, .i32⟩
  | 25 => ⟨S1600000, .i32⟩
  | 26 => ⟨S100000, .i32⟩
  | 27 => ⟨S1700000, .i32⟩
  | 28 => ⟨S1x1600000, .i32⟩
  | 29 => ⟨S1600000, .i32⟩
  | 30 => ⟨S100000, .i32⟩
  | 31 => ⟨S1700000, .i32⟩
  | 32 => ⟨S_, .f32⟩
  | 33 => ⟨S100000, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000, .f32⟩
  | 69 => ⟨S1700000, .f32⟩
  | 70 => ⟨S100000x128, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S128, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S1700000x1, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S100000x128, .f32⟩
  | 21 => ⟨S1700000x1, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000x128, .f32⟩
  | 31 => ⟨S1700000x128, .f32⟩
  | 32 => ⟨S1700000x128, .f32⟩
  | 33 => ⟨S_, .f32⟩
  | 34 => ⟨S100000x128, .f32⟩
  | 35 => ⟨S1700000x1, .i32⟩
  | 36 => ⟨S100000x128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S512x128, .f32⟩
  | 61 => ⟨S100000x1, .i32⟩
  | 62 => ⟨S512x128, .f32⟩
  | 63 => ⟨S_, .f32⟩
  | 64 => ⟨S100000, .f32⟩
  | 65 => ⟨S_, .f32⟩
  | 66 => ⟨S512, .f32⟩
  | 67 => ⟨S100000x1, .i32⟩
  | 68 => ⟨S512, .f32⟩
  | 69 => ⟨S_, .f32⟩
  | 70 => ⟨S512, .f32⟩
  | 71 => ⟨S512, .f32⟩
  | 72 => ⟨S512x1, .f32⟩
  | 73 => ⟨S512x128, .f32⟩
  | 74 => ⟨S512x128, .f32⟩
  | 75 => ⟨S512x2, .f32⟩
  | 76 => ⟨S1x2, .f32⟩
  | 77 => ⟨S512x2, .f32⟩
  | 78 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v18 : Ref sig .tc := ⟨.hbm, 49, rfl⟩
abbrev main_c : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_7 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_10 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_11 : Ref sig .tc := ⟨.hbm, 111, rfl⟩
abbrev main_v70 : Ref sig .tc := ⟨.hbm, 112, rfl⟩
abbrev main_v71 : Ref sig .tc := ⟨.hbm, 113, rfl⟩
abbrev main_c_12 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_13 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_14 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_call2_cst : Ref sig .tc := ⟨.hbm, 145, rfl⟩
abbrev main_call2_v0 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_15 : Ref sig .tc := ⟨.hbm, 150, rfl⟩
abbrev main_v103 : Ref sig .tc := ⟨.hbm, 151, rfl⟩
abbrev main_v104 : Ref sig .tc := ⟨.hbm, 152, rfl⟩
abbrev main_c_16 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_17 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_18 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_call3_cst : Ref sig .tc := ⟨.hbm, 184, rfl⟩
abbrev main_call3_v0 : Ref sig .tc := ⟨.hbm, 185, rfl⟩
abbrev main_v133 : Ref sig .tc := ⟨.hbm, 186, rfl⟩
abbrev main_cst_19 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_20 : Ref sig .tc := ⟨.hbm, 191, rfl⟩
abbrev main_v137 : Ref sig .tc := ⟨.hbm, 192, rfl⟩
abbrev main_cst_21 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_22 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.BoundaryRun.lean ====
/-
  The idealized kernel's run with every buffer named.

  The program is fourteen segments: stretches of host operations and seven kernel regions. The contents of the
  TensorCore's buffers at each segment boundary are a fold from the launch memory: a stretch applies its operations, a
  region replaces its output array by what its grid points wrote back and keeps everything else. Every weakly fair
  execution terminates, and every buffer that lives for the whole program then holds the last boundary's contents —
  in particular the result array, and each argument array.
-/
import proofs.«115828_j12532714570571_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and each buffer that lives for the whole
    program ends at the contents the fold through the fourteen segments gives it. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The run, read at the result array and at the argument arrays: the result holds the last boundary's contents, and
    each argument what it held at launch. -/
theorem run_result : θ_run defs (onTc (τ := τ) (main (F := F))) ⟨m, fun _ => 0, ρ⟩ (fun r => ∀ c : Dev nD,
      r.2.mem ((c.tc : Thread nD τ).loc main_v108) = W14 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨h c _ (mem_uc main_v108 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c),
     (h c _ (mem_uc main_arg20 (by decide))).trans (W14_main_arg20 m ρ c),
     (h c _ (mem_uc main_arg21 (by decide))).trans (W14_main_arg21 m ρ c),
     (h c _ (mem_uc main_arg22 (by decide))).trans (W14_main_arg22 m ρ c),
     (h c _ (mem_uc main_arg23 (by decide))).trans (W14_main_arg23 m ρ c)⟩)
    (run_boundary m ρ)

end Cert.KernelIdeal.Boundary

end
-- ==== Proof.Spec.lean ====
/-
  The three dense stages of a graph-convolution layer stack, as functions of whole arrays read entry by entry.

  Node features are a 100000 × 128 array. A layer multiplies them by a 128 × 128 weight matrix, mixes rows along the
  graph's edges (that mixing is the same sequence of host operations in both programs and is never opened here), then
  adds a bias, normalises each column with running statistics, rescales, shifts, and clips below at zero. After three
  layers the rows are averaged per graph into a 512 × 128 array, which a last 128 × 2 matrix and a bias take to the result.
  Entry (r, j) of a matrix product is the sum over q of entry (r, q) of the left factor times entry (q, j) of the right one.
-/
import Idealize.ShloMosaic.PureOps.Ideal
import Idealize.ShloMosaic.Lib.ValueIdx

noncomputable section

open scoped BigOperators

namespace Cert.GcnSpec

open Idealize.ShloMosaic Idealize.ShloMosaic.ValueIdx

/-- Node features: one row of 128 numbers per node. -/
abbrev Nodes : Type := (⟨2, ![100000, 128]⟩ : Shape).Idx → Elt Ideal .f32
/-- A 128 × 128 weight matrix. -/
abbrev Weights : Type := (⟨2, ![128, 128]⟩ : Shape).Idx → Elt Ideal .f32
/-- One number per feature column. -/
abbrev Column : Type := (⟨1, ![128]⟩ : Shape).Idx → Elt Ideal .f32
/-- Graph features: one row of 128 numbers per graph. -/
abbrev Graphs : Type := (⟨2, ![512, 128]⟩ : Shape).Idx → Elt Ideal .f32

/-- The node features times a weight matrix: entry (r, j) is the sum over q of x(r, q) · w(q, j). -/
def nodesTimes (x : Nodes) (w : Weights) : Nodes :=
  fun i => ∑ q : Fin 128, x (ix2 (i 0) q) * w (ix2 q (i 1))

/-- Bias, column normalisation by running mean and variance, scale, shift, and the clip at zero:
    entry (r, j) is max(((a(r, j) + b(j)) − μ(j)) · (σ²(j) + ε)^(−1/2) · γ(j) + β(j), 0). -/
def normClip (a : Nodes) (b γ β μ σ2 : Column) : Nodes :=
  fun i => max ((((a i + b (ix1 (i 1))) - μ (ix1 (i 1))) * Ideal.rsqrt (σ2 (ix1 (i 1)) + Ideal.ofBits .f32 0x3727C5AC#32))
      * γ (ix1 (i 1)) + β (ix1 (i 1))) (Ideal.ofBits .f32 0x00000000#32)

/-- The read-out: the graph features times a 128 × 2 matrix, plus a bias per output column. -/
def readOut (p : Graphs) (w : (⟨2, ![128, 2]⟩ : Shape).Idx → Elt Ideal .f32) (b : (⟨1, ![2]⟩ : Shape).Idx → Elt Ideal .f32) :
    (⟨2, ![512, 2]⟩ : Shape).Idx → Elt Ideal .f32 :=
  fun i => (∑ q : Fin 128, p (ix2 (i 0) q) * w (ix2 q (i 1))) + b (ix1 (i 1))

end Cert.GcnSpec

end
-- ==== Proof.KernelPoint.lean ====
/-
  What one grid point of each kernel writes, read entry by entry on the extended reals.

  A point of the projection kernel loads a 5000 × 128 block of node features and the whole weight matrix, narrows both
  to a shorter float format (the identity on extended reals) and multiplies them into a zero accumulator: entry (r, j)
  of what it stores is the sum over q of block(r, q) · w(q, j). A point of the normalisation kernel loads a block and
  five 1 × 128 rows, spreads each row down the block, and stores max(((a + b) − μ) · (σ² + ε)^(−1/2) · γ + β, 0) entry
  by entry. The read-out kernel's single point multiplies the 512 × 128 graph features by a 128 × 2 matrix the same way
  and adds a 1 × 2 bias row.
-/
import proofs.«115828_j12532714570571_1_alg».proof.Proof.Gen.KernelIdeal.Skeleton
import proofs.«115828_j12532714570571_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx

theorem tile_lhs0 (p : Fin 5000) (c : Fin 128) (q : dot_S5000x128_S128x128_S5000x128_1_0_0_1_n_n.contr.Idx) : (dot_S5000x128_S128x128_S5000x128_1_0_0_1_n_n.lhsIdx (ix2 p c) q 0).val = p.val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tile_lhs1 (p : Fin 5000) (c : Fin 128) (q : dot_S5000x128_S128x128_S5000x128_1_0_0_1_n_n.contr.Idx) : (dot_S5000x128_S128x128_S5000x128_1_0_0_1_n_n.lhsIdx (ix2 p c) q 1).val = (q ⟨0, by decide⟩).val :=
  dot_S5000x128_S128x128_S5000x128_1_0_0_1_n_n.lhsIdx_val_of_single rfl (ix2 p c) q
theorem tile_rhs0 (p : Fin 5000) (c : Fin 128) (q : dot_S5000x128_S128x128_S5000x128_1_0_0_1_n_n.contr.Idx) : (dot_S5000x128_S128x128_S5000x128_1_0_0_1_n_n.rhsIdx (ix2 p c) q 0).val = (q ⟨0, by decide⟩).val :=
  dot_S5000x128_S128x128_S5000x128_1_0_0_1_n_n.rhsIdx_val_of_single rfl (ix2 p c) q
theorem tile_rhs1 (p : Fin 5000) (c : Fin 128) (q : dot_S5000x128_S128x128_S5000x128_1_0_0_1_n_n.contr.Idx) : (dot_S5000x128_S128x128_S5000x128_1_0_0_1_n_n.rhsIdx (ix2 p c) q 1).val = c.val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block by a matrix into a zero accumulator, read at entry (p, c): the sum over the 128 shared positions. -/
theorem tile_sum (l : FVec Ideal S5000x128 .bf16) (r : FVec Ideal S128x128 .bf16) (p : Fin 5000) (c : Fin 128) :
    matmul (F := Ideal) dot_S5000x128_S128x128_S5000x128_1_0_0_1_n_n none l r (constant S5000x128 .f32 0x00000000#32) (ix2 p c) = ∑ q : Fin 128, l (ix2 p q) * r (ix2 q c) := by
  refine (Ideal.matmul_constant_zero_apply dot_S5000x128_S128x128_S5000x128_1_0_0_1_n_n none l r (ix2 p c)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p c) ((ValueIdx.contrEquiv1 dot_S5000x128_S128x128_S5000x128_1_0_0_1_n_n 128 rfl rfl).symm k) = ix2 p k := funext fun a => Fin.ext (by
    match a with
    | ⟨0, _⟩ => exact tile_lhs0 p c _
    | ⟨1, _⟩ => exact (tile_lhs1 p c _).trans hk)
  have er : dot_S5000x128_S128x128_S5000x128_1_0_0_1_n_n.rhsIdx (ix2 p c) ((ValueIdx.contrEquiv1 dot_S5000x128_S128x128_S5000x128_1_0_0_1_n_n 128 rfl rfl).symm k) = ix2 k c := funext fun a => Fin.ext (by
    match a with
    | ⟨0, _⟩ => exact (tile_rhs0 p c _).trans hk
    | ⟨1, _⟩ => exact tile_rhs1 p c _)
  rw [el, er]

theorem pool_lhs0 (p : Fin 512) (c : Fin 2) (q : dot_S512x128_S128x2_S512x2_1_0_0_1_n_n.contr.Idx) : (dot_S512x128_S128x2_S512x2_1_0_0_1_n_n.lhsIdx (ix2 p c) q 0).val = p.val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem pool_lhs1 (p : Fin 512) (c : Fin 2) (q : dot_S512x128_S128x2_S512x2_1_0_0_1_n_n.contr.Idx) : (dot_S512x128_S128x2_S512x2_1_0_0_1_n_n.lhsIdx (ix2 p c) q 1).val = (q ⟨0, by decide⟩).val :=
  dot_S512x128_S128x2_S512x2_1_0_0_1_n_n.lhsIdx_val_of_single rfl (ix2 p c) q
theorem pool_rhs0 (p : Fin 512) (c : Fin 2) (q : dot_S512x128_S128x2_S512x2_1_0_0_1_n_n.contr.Idx) : (dot_S512x128_S128x2_S512x2_1_0_0_1_n_n.rhsIdx (ix2 p c) q 0).val = (q ⟨0, by decide⟩).val :=
  dot_S512x128_S128x2_S512x2_1_0_0_1_n_n.rhsIdx_val_of_single rfl (ix2 p c) q
theorem pool_rhs1 (p : Fin 512) (c : Fin 2) (q : dot_S512x128_S128x2_S512x2_1_0_0_1_n_n.contr.Idx) : (dot_S512x128_S128x2_S512x2_1_0_0_1_n_n.rhsIdx (ix2 p c) q 1).val = c.val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The product of a block by a matrix into a zero accumulator, read at entry (p, c): the sum over the 128 shared positions. -/
theorem pool_sum (l : FVec Ideal S512x128 .bf16) (r : FVec Ideal S128x2 .bf16) (p : Fin 512) (c : Fin 2) :
    matmul (F := Ideal) dot_S512x128_S128x2_S512x2_1_0_0_1_n_n none l r (constant S512x2 .f32 0x00000000#32) (ix2 p c) = ∑ q : Fin 128, l (ix2 p q) * r (ix2 q c) := by
  refine (Ideal.matmul_constant_zero_apply dot_S512x128_S128x2_S512x2_1_0_0_1_n_n none l r (ix2 p c)).trans ?_
  rw [← Equiv.sum_comp (ValueIdx.contrEquiv1 dot_S512x128_S128x2_S512x2_1_0_0_1_n_n 128 rfl rfl).symm]
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx (ix2 p c) ((ValueIdx.contrEquiv1 dot_S512x128_S128x2_S512x2_1_0_0_1_n_n 128 rfl rfl).symm k) = ix2 p k := funext fun a => Fin.ext (by
    match a with
    | ⟨0, _⟩ => exact pool_lhs0 p c _
    | ⟨1, _⟩ => exact (pool_lhs1 p c _).trans hk)
  have er : dot_S512x128_S128x2_S512x2_1_0_0_1_n_n.rhsIdx (ix2 p c) ((ValueIdx.contrEquiv1 dot_S512x128_S128x2_S512x2_1_0_0_1_n_n 128 rfl rfl).symm k) = ix2 k c := funext fun a => Fin.ext (by
    match a with
    | ⟨0, _⟩ => exact (pool_rhs0 p c _).trans hk
    | ⟨1, _⟩ => exact pool_rhs1 p c _)
  rw [el, er]

/-- The projection kernel's stored block, entry by entry. -/
theorem project_apply (x0 : Vec Ideal S5000x128 .f32) (x1 : Vec Ideal S128x128 .f32) (p : Fin 5000) (r : Fin 128) :
    k0_pay1 (F := Ideal) x0 x1 (ix2 p r) = ∑ q : Fin 128, x0 (ix2 p q) * x1 (ix2 q r) := by
  unfold k0_pay1
  exact tile_sum _ _ p r
/-- The later projection kernels first re-cast the block to its own shape, which changes nothing. -/
theorem project2_eq (x0 : Vec Ideal S5000x128 .f32) (x1 : Vec Ideal S128x128 .f32) : k2_pay1 (F := Ideal) x0 x1 = k0_pay1 x0 x1 := by
  unfold k2_pay1 k0_pay1
  rw [shapeCast_self]
theorem project4_eq (x0 : Vec Ideal S5000x128 .f32) (x1 : Vec Ideal S128x128 .f32) : k4_pay1 (F := Ideal) x0 x1 = k0_pay1 x0 x1 := by
  unfold k4_pay1 k0_pay1
  rw [shapeCast_self]

/-- The normalisation kernel's stored block, entry by entry (the operands in the order the body loads them:
    block, bias row, variance row, mean row, scale row, shift row). -/
theorem normalise_apply (a : Vec Ideal S5000x128 .f32) (b σ2 μ γ β : Vec Ideal S1x128 .f32) (p : Fin 5000) (q : Fin 128) :
    k1_pay1 (F := Ideal) a b σ2 μ γ β (ix2 p q)
      = max ((((a (ix2 p q) + b (ix2 (0 : Fin 1) q)) - μ (ix2 (0 : Fin 1) q))
          * Ideal.rsqrt (σ2 (ix2 (0 : Fin 1) q) + Ideal.ofBits .f32 0x3727C5AC#32)) * γ (ix2 (0 : Fin 1) q) + β (ix2 (0 : Fin 1) q))
        (Ideal.ofBits .f32 0x00000000#32) := by
  unfold k1_pay1
  simp only [shapeCast_self]
  simp only [maximumf_apply, addf_apply, mulf_apply, subf_apply, broadcast_apply, broadcastTo_1b_ab_apply]
  rfl
theorem normalise3_eq (a : Vec Ideal S5000x128 .f32) (b σ2 μ γ β : Vec Ideal S1x128 .f32) : k3_pay1 (F := Ideal) a b σ2 μ γ β = k1_pay1 a b σ2 μ γ β := rfl
theorem normalise5_eq (a : Vec Ideal S5000x128 .f32) (b σ2 μ γ β : Vec Ideal S1x128 .f32) : k5_pay1 (F := Ideal) a b σ2 μ γ β = k1_pay1 a b σ2 μ γ β := rfl

/-- The read-out kernel's stored block, entry by entry. -/
theorem readout_apply (x0 : Vec Ideal S512x128 .f32) (x1 : Vec Ideal S128x2 .f32) (x2 : Vec Ideal S1x2 .f32) (p : Fin 512) (q : Fin 2) :
    k6_pay1 (F := Ideal) x0 x1 x2 (ix2 p q) = (∑ k : Fin 128, x0 (ix2 p k) * x1 (ix2 k q)) + x2 (ix2 (0 : Fin 1) q) := by
  unfold k6_pay1
  simp only [shapeCast_self]
  rw [addf_apply, broadcastTo_1b_ab_apply, pool_sum]
  rfl

/-! ## A point's block against the whole-array functions -/

/-- If the loaded block's row `p` is row `i 0` of the node features and the loaded matrix is the weight matrix, the
    stored entry (p, r) is entry `i` of the product, provided `i`'s column is `r`. -/
theorem project_block (X : GcnSpec.Nodes) (Wt : GcnSpec.Weights) (x0 : Vec Ideal S5000x128 .f32) (x1 : Vec Ideal S128x128 .f32)
    (p : Fin 5000) (r : Fin 128) (i : S100000x128.Idx)
    (h0 : ∀ q : Fin 128, x0 (ix2 p q) = X (ix2 (i 0) q)) (h1 : ∀ q : Fin 128, x1 (ix2 q r) = Wt (ix2 q (i 1))) :
    k0_pay1 (F := Ideal) x0 x1 (ix2 p r) = GcnSpec.nodesTimes X Wt i := by
  rw [project_apply]
  unfold GcnSpec.nodesTimes
  exact Finset.sum_congr rfl fun q _ => by rw [h0 q, h1 q]

/-- The same for the normalisation: the stored entry (p, q) is entry `i` of the normalised array when the block's
    entry is the array's at `i` and each loaded row's entry is its column's at `i`'s column. -/
theorem normalise_block (A : GcnSpec.Nodes) (b γ β μ σ2 : GcnSpec.Column)
    (a : Vec Ideal S5000x128 .f32) (b' σ2' μ' γ' β' : Vec Ideal S1x128 .f32) (p : Fin 5000) (q : Fin 128) (i : S100000x128.Idx)
    (ha : a (ix2 p q) = A i) (hb : b' (ix2 (0 : Fin 1) q) = b (ix1 (i 1))) (hσ : σ2' (ix2 (0 : Fin 1) q) = σ2 (ix1 (i 1)))
    (hμ : μ' (ix2 (0 : Fin 1) q) = μ (ix1 (i 1))) (hγ : γ' (ix2 (0 : Fin 1) q) = γ (ix1 (i 1))) (hβ : β' (ix2 (0 : Fin 1) q) = β (ix1 (i 1))) :
    k1_pay1 (F := Ideal) a b' σ2' μ' γ' β' (ix2 p q) = GcnSpec.normClip A b γ β μ σ2 i := by
  rw [normalise_apply, ha, hb, hσ, hμ, hγ, hβ]
  rfl

/-- The same for the read-out. -/
theorem readout_block (P : GcnSpec.Graphs) (Wt : (⟨2, ![128, 2]⟩ : Shape).Idx → Elt Ideal .f32) (bl : (⟨1, ![2]⟩ : Shape).Idx → Elt Ideal .f32)
    (x0 : Vec Ideal S512x128 .f32) (x1 : Vec Ideal S128x2 .f32) (x2 : Vec Ideal S1x2 .f32) (p : Fin 512) (r : Fin 2) (i : S512x2.Idx)
    (h0 : ∀ q : Fin 128, x0 (ix2 p q) = P (ix2 (i 0) q)) (h1 : ∀ q : Fin 128, x1 (ix2 q r) = Wt (ix2 q (i 1)))
    (h2 : x2 (ix2 (0 : Fin 1) r) = bl (ix1 (i 1))) :
    k6_pay1 (F := Ideal) x0 x1 x2 (ix2 p r) = GcnSpec.readOut P Wt bl i := by
  rw [readout_apply, h2]
  unfold GcnSpec.readOut
  exact congrArg (· + bl (ix1 (i 1))) (Finset.sum_congr rfl fun q _ => by rw [h0 q, h1 q])

end Cert.KernelIdeal.Point

end
-- ==== Proof.Project0.lean ====
/-
  Projection region 0: after its twenty grid points, the output array is the node features as the region found them
  times the weight matrix as the region found it.

  Point t loads rows 5000·t … 5000·t + 4999 of the features and the whole matrix, and writes back the same rows of the
  output; the twenty row ranges partition the 100000 rows, so every entry of the output is written by exactly the point
  whose range holds its row, with the product's value there.
-/
import proofs.«115828_j12532714570571_1_alg».proof.Proof.Gen.KernelIdeal.Frame
import proofs.«115828_j12532714570571_1_alg».proof.Proof.KernelPoint

set_option maxRecDepth 16384

noncomputable section

namespace Cert.KernelIdeal.Project0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: point t takes row block t of the features and of the output, and the one block of the matrix. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its block of the product. -/
theorem written (c : Dev nD) (t : Fin cfg0.N) :
    (dat0 V c).flushed 2 t = ((cfg0.win 2).blk t).view.read (Elt Ideal) (GcnSpec.nodesTimes (V c main_arg0) (V c main_arg4)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blocks_at t
  refine funext fun (j : S5000x128.Idx) => ?_
  obtain ⟨p, r, rfl⟩ : ∃ (p : Fin 5000) (r : Fin 128), j = ix2 p r := ⟨j 0, j 1, eq_ix2 j⟩
  show k0_pay1 (F := Ideal) (iblk0 V c 0 t) (iblk0 V c 1 t) (ix2 p r) = GcnSpec.nodesTimes (V c main_arg0) (V c main_arg4) (((cfg0.win 2).blk t).view.emb (ix2 p r))
  refine Point.project_block (V c main_arg0) (V c main_arg4) _ _ p r _ (fun q => ?_) (fun q => ?_)
  · show V c main_arg0 (((cfg0.win 0).blk t).view.emb (ix2 p q)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = q.val; omega
  · show V c main_arg4 (((cfg0.win 1).blk t).view.emb (ix2 q r)) = _
    refine congrArg (V c main_arg4) (funext fun a => Fin.ext ?_)
    match a with
    | ⟨0, _⟩ => show win0_1.index t (0 : Fin 2) * 128 + 1 * q.val = q.val; omega
    | ⟨1, _⟩ => show win0_1.index t (1 : Fin 2) * 128 + 1 * r.val = win0_2.index t (1 : Fin 2) * 128 + 1 * r.val; omega

/-- An index of the output is in point t's block iff each coordinate is in the block's range. -/
theorem in_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every entry of the output is in the block of the point that holds its row. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have hlt : (i 0).val / 5000 < grid0.N := by omega
  obtain ⟨-, -, -, -, e4, e5⟩ := blocks_at ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [in_block]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 128 ≤ (i 1).val ∧ (i 1).val < win0_2.index ⟨(i 0).val / 5000, hlt⟩ (1 : Fin 2) * 128 + 128; omega

/-- The output array after the region: the features times the weights, as the region found them. -/
theorem result (c : Dev nD) : (dat0 V c).arrAt 2 cfg0.N = GcnSpec.nodesTimes (V c main_arg0) (V c main_arg4) :=
  (dat0 V c).arrAt_eq_of_cover 2 (GcnSpec.nodesTimes (V c main_arg0) (V c main_arg4)) (fun t _ => written V c t) covered

end Cert.KernelIdeal.Project0

end
-- ==== Proof.Project2.lean ====
/-
  Projection region 2: after its twenty grid points, the output array is the node features as the region found them
  times the weight matrix as the region found it.

  Point t loads rows 5000·t … 5000·t + 4999 of the features and the whole matrix, and writes back the same rows of the
  output; the twenty row ranges partition the 100000 rows, so every entry of the output is written by exactly the point
  whose range holds its row, with the product's value there.
-/
import proofs.«115828_j12532714570571_1_alg».proof.Proof.Gen.KernelIdeal.Frame
import proofs.«115828_j12532714570571_1_alg».proof.Proof.KernelPoint

set_option maxRecDepth 16384

noncomputable section

namespace Cert.KernelIdeal.Project2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: point t takes row block t of the features and of the output, and the one block of the matrix. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is its block of the product. -/
theorem written (c : Dev nD) (t : Fin cfg2.N) :
    (dat2 V c).flushed 2 t = ((cfg2.win 2).blk t).view.read (Elt Ideal) (GcnSpec.nodesTimes (V c main_v54) (V c main_arg10)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := blocks_at t
  refine funext fun (j : S5000x128.Idx) => ?_
  obtain ⟨p, r, rfl⟩ : ∃ (p : Fin 5000) (r : Fin 128), j = ix2 p r := ⟨j 0, j 1, eq_ix2 j⟩
  show k2_pay1 (F := Ideal) (iblk2 V c 0 t) (iblk2 V c 1 t) (ix2 p r) = GcnSpec.nodesTimes (V c main_v54) (V c main_arg10) (((cfg2.win 2).blk t).view.emb (ix2 p r))
  rw [Point.project2_eq]
  refine Point.project_block (V c main_v54) (V c main_arg10) _ _ p r _ (fun q => ?_) (fun q => ?_)
  · show V c main_v54 (((cfg2.win 0).blk t).view.emb (ix2 p q)) = _
    refine congrArg (V c main_v54) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = q.val; omega
  · show V c main_arg10 (((cfg2.win 1).blk t).view.emb (ix2 q r)) = _
    refine congrArg (V c main_arg10) (funext fun a => Fin.ext ?_)
    match a with
    | ⟨0, _⟩ => show win2_1.index t (0 : Fin 2) * 128 + 1 * q.val = q.val; omega
    | ⟨1, _⟩ => show win2_1.index t (1 : Fin 2) * 128 + 1 * r.val = win2_2.index t (1 : Fin 2) * 128 + 1 * r.val; omega

/-- An index of the output is in point t's block iff each coordinate is in the block's range. -/
theorem in_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v55).slice (win2_2.rect t)).set ↔ _
  rw [View.set_slice_whole, Rect.mem_set_unit]
  exact Iff.rfl

/-- Every entry of the output is in the block of the point that holds its row. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have hlt : (i 0).val / 5000 < grid2.N := by omega
  obtain ⟨-, -, -, -, e4, e5⟩ := blocks_at ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [in_block]
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 128 ≤ (i 1).val ∧ (i 1).val < win2_2.index ⟨(i 0).val / 5000, hlt⟩ (1 : Fin 2) * 128 + 128; omega

/-- The output array after the region: the features times the weights, as the region found them. -/
theorem result (c : Dev nD) : (dat2 V c).arrAt 2 cfg2.N = GcnSpec.nodesTimes (V c main_v54) (V c main_arg10) :=
  (dat2 V c).arrAt_eq_of_cover 2 (GcnSpec.nodesTimes (V c main_v54) (V c main_arg10)) (fun t _ => written V c t) covered

end Cert.KernelIdeal.Project2

end
-- ==== Proof.Project4.lean ====
/-
  Projection region 4: after its twenty grid points, the output array is the node features as the region found them
  times the weight matrix as the region found it.

  Point t loads rows 5000·t … 5000·t + 4999 of the features and the whole matrix, and writes back the same rows of the
  output; the twenty row ranges partition the 100000 rows, so every entry of the output is written by exactly the point
  whose range holds its row, with the product's value there.
-/
import proofs.«115828_j12532714570571_1_alg».proof.Proof.Gen.KernelIdeal.Frame
import proofs.«115828_j12532714570571_1_alg».proof.Proof.KernelPoint

set_option maxRecDepth 16384

noncomputable section

namespace Cert.KernelIdeal.Project4

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: point t takes row block t of the features and of the output, and the one block of the matrix. -/
theorem blocks_at : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is its block of the product. -/
theorem written (c : Dev nD) (t : Fin cfg4.N) :
    (dat4 V c).flushed 2 t = ((cfg4.win 2).blk t).view.read (Elt Ideal) (GcnSpec.nodesTimes (V c main_v74) (V c main_arg16)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x128) origin]
  obtain ⟨e0, e1, e2, e3, e4, e5⟩ := blocks_at t
  refine funext fun (j : S5000x128.Idx) => ?_
  obtain ⟨p, r, rfl⟩ : ∃ (p : Fin 5000) (r : Fin 128), j = ix2 p r := ⟨j 0, j 1, eq_ix2 j⟩
  show k4_pay1 (F := Ideal) (iblk4 V c 0 t) (iblk4 V c 1 t) (ix2 p r) = GcnSpec.nodesTimes (V c main_v74) (V c main_arg16) (((cfg4.win 2).blk t).view.emb (ix2 p r))
  rw [Point.project4_eq]
  refine Point.project_block (V c main_v74) (V c main_arg16) _ _ p r _ (fun q => ?_) (fun q => ?_)
  · show V c main_v74 (((cfg4.win 0).blk t).view.emb (ix2 p q)) = _
    refine congrArg (V c main_v74) (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * q.val = q.val; omega
  · show V c main_arg16 (((cfg4.win 1).blk t).view.emb (ix2 q r)) = _
    refine congrArg (V c main_arg16) (funext fun a => Fin.ext ?_)
    match a with
    | ⟨0, _⟩ => show win4_1.index t (0 : Fin 2) * 128 + 1 * q.val = q.val; omega
    | ⟨1, _⟩ => show win4_1.index t (1 : Fin 2) * 128 + 1 * r.val = win4_2.index t (1 : Fin 2) * 128 + 1 * r.val; omega

/-- An index of the output is in point t's block iff each coordinate is in the block's range. -/
theorem in_block (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v75).slice (win4_2.rect t)).set ↔ _
  rw [View.set_slice_whole, Rect.mem_set_unit]
  exact Iff.rfl

/-- Every entry of the output is in the block of the point that holds its row. -/
theorem covered (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  have hlt : (i 0).val / 5000 < grid4.N := by omega
  obtain ⟨-, -, -, -, e4, e5⟩ := blocks_at ⟨(i 0).val / 5000, hlt⟩
  have e4' : win4_2.index ⟨(i 0).val / 5000, hlt⟩ (0 : Fin 2) = (i 0).val / 5000 := e4
  refine ⟨⟨(i 0).val / 5000, hlt⟩, flush4_2 _, ?_⟩
  rw [in_block]
  intro a
  match a with
  | ⟨0, _⟩ => show win4_2.index ⟨(i 0).val / 5000, hlt⟩ (0 : Fin 2) * 5000 ≤ (i 0).val ∧ (i 0).val < win4_2.index ⟨(i 0).val / 5000, hlt⟩ (0 : Fin 2) * 5000 + 5000; omega
  | ⟨1, _⟩ => show win4_2.index ⟨(i 0).val / 5000, hlt⟩ (1 : Fin 2) * 128 ≤ (i 1).val ∧ (i 1).val < win4_2.index ⟨(i 0).val / 5000, hlt⟩ (1 : Fin 2) * 128 + 128; omega

/-- The output array after the region: the features times the weights, as the region found them. -/
theorem result (c : Dev nD) : (dat4 V c).arrAt 2 cfg4.N = GcnSpec.nodesTimes (V c main_v74) (V c main_arg16) :=
  (dat4 V c).arrAt_eq_of_cover 2 (GcnSpec.nodesTimes (V c main_v74) (V c main_arg16)) (fun t _ => written V c t) covered

end Cert.KernelIdeal.Project4

end
-- ==== Proof.Normalise1.lean ====
/-
  Normalisation region 1: after its twenty grid points, the output array is the input array with the bias added, each
  column normalised by its running mean and variance, scaled, shifted, and clipped below at zero.

  Point t loads rows 5000·t … 5000·t + 4999 of the input and the five 1 × 128 parameter rows, and writes back the same
  rows of the output. Each parameter row is a length-128 column vector laid out as one row; the twenty row ranges
  partition the 100000 rows.
-/
import proofs.«115828_j12532714570571_1_alg».proof.Proof.Gen.KernelIdeal.Frame
import proofs.«115828_j12532714570571_1_alg».proof.Proof.KernelPoint

set_option maxRecDepth 16384

noncomputable section

namespace Cert.KernelIdeal.Normalise1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: point t takes row block t of the input and of the output, and the one block of each parameter row. -/
theorem blocks_at : ∀ t : Fin cfg1.N, win1_0.index t (0 : Fin 2) = t.val ∧ win1_0.index t (1 : Fin 2) = 0
    ∧ win1_1.index t (1 : Fin 2) = 0 ∧ win1_2.index t (1 : Fin 2) = 0 ∧ win1_3.index t (1 : Fin 2) = 0
    ∧ win1_4.index t (1 : Fin 2) = 0 ∧ win1_5.index t (1 : Fin 2) = 0
    ∧ win1_1.index t (0 : Fin 2) = 0 ∧ win1_2.index t (0 : Fin 2) = 0 ∧ win1_3.index t (0 : Fin 2) = 0
    ∧ win1_4.index t (0 : Fin 2) = 0 ∧ win1_5.index t (0 : Fin 2) = 0
    ∧ win1_6.index t (0 : Fin 2) = t.val ∧ win1_6.index t (1 : Fin 2) = 0 :=
  (by decide +kernel : ∀ t : Fin grid1.N, _)

/-- What point t writes back is its block of the normalised array. -/
theorem written (c : Dev nD) (b γ β μ σ2 : GcnSpec.Column)
    (hb : ∀ q : Fin 128, V c main_v49 (ix2 (0 : Fin 1) q) = b (ix1 q)) (hγ : ∀ q : Fin 128, V c main_v50 (ix2 (0 : Fin 1) q) = γ (ix1 q))
    (hβ : ∀ q : Fin 128, V c main_v51 (ix2 (0 : Fin 1) q) = β (ix1 q)) (hμ : ∀ q : Fin 128, V c main_v52 (ix2 (0 : Fin 1) q) = μ (ix1 q))
    (hσ2 : ∀ q : Fin 128, V c main_v53 (ix2 (0 : Fin 1) q) = σ2 (ix1 q)) (t : Fin cfg1.N) :
    (dat1 V c).flushed 6 t = ((cfg1.win 6).blk t).view.read (Elt Ideal) (GcnSpec.normClip (V c main_v48) b γ β μ σ2) := by
  show (cfg1.win 6).cut (grid1.coords t) ((dat1 V c).after 6 t) = _
  rw [after1_6]
  unfold out1_6
  rw [View.canon_unit_zero origin]
  simp only [View.ld_unit_zero (S := S5000x128) origin, View.ld_unit_zero (S := S1x128) origin]
  obtain ⟨e0, e1, e2, e3, e4, e5, e6, e7, e8, e9, e10, e11, e12, e13⟩ := blocks_at t
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 5 t) (iblk1 V c 4 t) (iblk1 V c 2 t) (iblk1 V c 3 t) (ix2 p q)
    = GcnSpec.normClip (V c main_v48) b γ β μ σ2 (((cfg1.win 6).blk t).view.emb (ix2 p q))
  refine Point.normalise_block (V c main_v48) b γ β μ σ2 _ _ _ _ _ _ p q _ ?_ ?_ ?_ ?_ ?_ ?_
  · show V c main_v48 (((cfg1.win 0).blk t).view.emb (ix2 p q)) = _
    refine congrArg (V c main_v48) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * q.val = win1_6.index t (1 : Fin 2) * 128 + 1 * q.val; omega
  · show V c main_v49 (((cfg1.win 1).blk t).view.emb (ix2 (0 : Fin 1) q)) = _
    refine (congrArg (V c main_v49) (funext fun a => Fin.ext ?_)).trans ((hb q).trans (congrArg b (funext fun a => Fin.ext ?_)))
    · match a with
      | ⟨0, _⟩ => show win1_1.index t (0 : Fin 2) * 1 + 1 * 0 = 0; omega
      | ⟨1, _⟩ => show win1_1.index t (1 : Fin 2) * 128 + 1 * q.val = q.val; omega
    · match a with
      | ⟨0, _⟩ => show q.val = win1_6.index t (1 : Fin 2) * 128 + 1 * q.val; omega
  · show V c main_v53 (((cfg1.win 5).blk t).view.emb (ix2 (0 : Fin 1) q)) = _
    refine (congrArg (V c main_v53) (funext fun a => Fin.ext ?_)).trans ((hσ2 q).trans (congrArg σ2 (funext fun a => Fin.ext ?_)))
    · match a with
      | ⟨0, _⟩ => show win1_5.index t (0 : Fin 2) * 1 + 1 * 0 = 0; omega
      | ⟨1, _⟩ => show win1_5.index t (1 : Fin 2) * 128 + 1 * q.val = q.val; omega
    · match a with
      | ⟨0, _⟩ => show q.val = win1_6.index t (1 : Fin 2) * 128 + 1 * q.val; omega
  · show V c main_v52 (((cfg1.win 4).blk t).view.emb (ix2 (0 : Fin 1) q)) = _
    refine (congrArg (V c main_v52) (funext fun a => Fin.ext ?_)).trans ((hμ q).trans (congrArg μ (funext fun a => Fin.ext ?_)))
    · match a with
      | ⟨0, _⟩ => show win1_4.index t (0 : Fin 2) * 1 + 1 * 0 = 0; omega
      | ⟨1, _⟩ => show win1_4.index t (1 : Fin 2) * 128 + 1 * q.val = q.val; omega
    · match a with
      | ⟨0, _⟩ => show q.val = win1_6.index t (1 : Fin 2) * 128 + 1 * q.val; omega
  · show V c main_v50 (((cfg1.win 2).blk t).view.emb (ix2 (0 : Fin 1) q)) = _
    refine (congrArg (V c main_v50) (funext fun a => Fin.ext ?_)).trans ((hγ q).trans (congrArg γ (funext fun a => Fin.ext ?_)))
    · match a with
      | ⟨0, _⟩ => show win1_2.index t (0 : Fin 2) * 1 + 1 * 0 = 0; omega
      | ⟨1, _⟩ => show win1_2.index t (1 : Fin 2) * 128 + 1 * q.val = q.val; omega
    · match a with
      | ⟨0, _⟩ => show q.val = win1_6.index t (1 : Fin 2) * 128 + 1 * q.val; omega
  · show V c main_v51 (((cfg1.win 3).blk t).view.emb (ix2 (0 : Fin 1) q)) = _
    refine (congrArg (V c main_v51) (funext fun a => Fin.ext ?_)).trans ((hβ q).trans (congrArg β (funext fun a => Fin.ext ?_)))
    · match a with
      | ⟨0, _⟩ => show win1_3.index t (0 : Fin 2) * 1 + 1 * 0 = 0; omega
      | ⟨1, _⟩ => show win1_3.index t (1 : Fin 2) * 128 + 1 * q.val = q.val; omega
    · match a with
      | ⟨0, _⟩ => show q.val = win1_6.index t (1 : Fin 2) * 128 + 1 * q.val; omega

/-- An index of the output is in point t's block iff each coordinate is in the block's range. -/
theorem in_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v54).slice (win1_6.rect t)).set ↔ _
  rw [View.set_slice_whole, Rect.mem_set_unit]
  exact Iff.rfl

/-- Every entry of the output is in the block of the point that holds its row. -/
theorem covered (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have hlt : (i 0).val / 5000 < grid1.N := by omega
  obtain ⟨-, -, -, -, -, -, -, -, -, -, -, -, e12, e13⟩ := blocks_at ⟨(i 0).val / 5000, hlt⟩
  have e12' : win1_6.index ⟨(i 0).val / 5000, hlt⟩ (0 : Fin 2) = (i 0).val / 5000 := e12
  refine ⟨⟨(i 0).val / 5000, hlt⟩, flush1_6 _, ?_⟩
  rw [in_block]
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 128 ≤ (i 1).val ∧ (i 1).val < win1_6.index ⟨(i 0).val / 5000, hlt⟩ (1 : Fin 2) * 128 + 128; omega

/-- The output array after the region: the normalised, clipped input, for the column vectors the parameter rows lay out. -/
theorem result (c : Dev nD) (b γ β μ σ2 : GcnSpec.Column)
    (hb : ∀ q : Fin 128, V c main_v49 (ix2 (0 : Fin 1) q) = b (ix1 q)) (hγ : ∀ q : Fin 128, V c main_v50 (ix2 (0 : Fin 1) q) = γ (ix1 q))
    (hβ : ∀ q : Fin 128, V c main_v51 (ix2 (0 : Fin 1) q) = β (ix1 q)) (hμ : ∀ q : Fin 128, V c main_v52 (ix2 (0 : Fin 1) q) = μ (ix1 q))
    (hσ2 : ∀ q : Fin 128, V c main_v53 (ix2 (0 : Fin 1) q) = σ2 (ix1 q)) :
    (dat1 V c).arrAt 6 cfg1.N = GcnSpec.normClip (V c main_v48) b γ β μ σ2 :=
  (dat1 V c).arrAt_eq_of_cover 6 (GcnSpec.normClip (V c main_v48) b γ β μ σ2) (fun t _ => written V c b γ β μ σ2 hb hγ hβ hμ hσ2 t) covered

end Cert.KernelIdeal.Normalise1

end
-- ==== Proof.Normalise3.lean ====
/-
  Normalisation region 3: after its twenty grid points, the output array is the input array with the bias added, each
  column normalised by its running mean and variance, scaled, shifted, and clipped below at zero.

  Point t loads rows 5000·t … 5000·t + 4999 of the input and the five 1 × 128 parameter rows, and writes back the same
  rows of the output. Each parameter row is a length-128 column vector laid out as one row; the twenty row ranges
  partition the 100000 rows.
-/
import proofs.«115828_j12532714570571_1_alg».proof.Proof.Gen.KernelIdeal.Frame
import proofs.«115828_j12532714570571_1_alg».proof.Proof.KernelPoint

set_option maxRecDepth 16384

noncomputable section

namespace Cert.KernelIdeal.Normalise3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: point t takes row block t of the input and of the output, and the one block of each parameter row. -/
theorem blocks_at : ∀ t : Fin cfg3.N, win3_0.index t (0 : Fin 2) = t.val ∧ win3_0.index t (1 : Fin 2) = 0
    ∧ win3_1.index t (1 : Fin 2) = 0 ∧ win3_2.index t (1 : Fin 2) = 0 ∧ win3_3.index t (1 : Fin 2) = 0
    ∧ win3_4.index t (1 : Fin 2) = 0 ∧ win3_5.index t (1 : Fin 2) = 0
    ∧ win3_1.index t (0 : Fin 2) = 0 ∧ win3_2.index t (0 : Fin 2) = 0 ∧ win3_3.index t (0 : Fin 2) = 0
    ∧ win3_4.index t (0 : Fin 2) = 0 ∧ win3_5.index t (0 : Fin 2) = 0
    ∧ win3_6.index t (0 : Fin 2) = t.val ∧ win3_6.index t (1 : Fin 2) = 0 :=
  (by decide +kernel : ∀ t : Fin grid3.N, _)

/-- What point t writes back is its block of the normalised array. -/
theorem written (c : Dev nD) (b γ β μ σ2 : GcnSpec.Column)
    (hb : ∀ q : Fin 128, V c main_v69 (ix2 (0 : Fin 1) q) = b (ix1 q)) (hγ : ∀ q : Fin 128, V c main_v70 (ix2 (0 : Fin 1) q) = γ (ix1 q))
    (hβ : ∀ q : Fin 128, V c main_v71 (ix2 (0 : Fin 1) q) = β (ix1 q)) (hμ : ∀ q : Fin 128, V c main_v72 (ix2 (0 : Fin 1) q) = μ (ix1 q))
    (hσ2 : ∀ q : Fin 128, V c main_v73 (ix2 (0 : Fin 1) q) = σ2 (ix1 q)) (t : Fin cfg3.N) :
    (dat3 V c).flushed 6 t = ((cfg3.win 6).blk t).view.read (Elt Ideal) (GcnSpec.normClip (V c main_v68) b γ β μ σ2) := by
  show (cfg3.win 6).cut (grid3.coords t) ((dat3 V c).after 6 t) = _
  rw [after3_6]
  unfold out3_6
  rw [View.canon_unit_zero origin]
  simp only [View.ld_unit_zero (S := S5000x128) origin, View.ld_unit_zero (S := S1x128) origin]
  obtain ⟨e0, e1, e2, e3, e4, e5, e6, e7, e8, e9, e10, e11, e12, e13⟩ := blocks_at t
  refine funext fun (j : S5000x128.Idx) => ?_
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 5 t) (iblk3 V c 4 t) (iblk3 V c 2 t) (iblk3 V c 3 t) (ix2 p q)
    = GcnSpec.normClip (V c main_v68) b γ β μ σ2 (((cfg3.win 6).blk t).view.emb (ix2 p q))
  rw [Point.normalise3_eq]
  refine Point.normalise_block (V c main_v68) b γ β μ σ2 _ _ _ _ _ _ p q _ ?_ ?_ ?_ ?_ ?_ ?_
  · show V c main_v68 (((cfg3.win 0).blk t).view.emb (ix2 p q)) = _
    refine congrArg (V c main_v68) (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * q.val = win3_6.index t (1 : Fin 2) * 128 + 1 * q.val; omega
  · show V c main_v69 (((cfg3.win 1).blk t).view.emb (ix2 (0 : Fin 1) q)) = _
    refine (congrArg (V c main_v69) (funext fun a => Fin.ext ?_)).trans ((hb q).trans (congrArg b (funext fun a => Fin.ext ?_)))
    · match a with
      | ⟨0, _⟩ => show win3_1.index t (0 : Fin 2) * 1 + 1 * 0 = 0; omega
      | ⟨1, _⟩ => show win3_1.index t (1 : Fin 2) * 128 + 1 * q.val = q.val; omega
    · match a with
      | ⟨0, _⟩ => show q.val = win3_6.index t (1 : Fin 2) * 128 + 1 * q.val; omega
  · show V c main_v73 (((cfg3.win 5).blk t).view.emb (ix2 (0 : Fin 1) q)) = _
    refine (congrArg (V c main_v73) (funext fun a => Fin.ext ?_)).trans ((hσ2 q).trans (congrArg σ2 (funext fun a => Fin.ext ?_)))
    · match a with
      | ⟨0, _⟩ => show win3_5.index t (0 : Fin 2) * 1 + 1 * 0 = 0; omega
      | ⟨1, _⟩ => show win3_5.index t (1 : Fin 2) * 128 + 1 * q.val = q.val; omega
    · match a with
      | ⟨0, _⟩ => show q.val = win3_6.index t (1 : Fin 2) * 128 + 1 * q.val; omega
  · show V c main_v72 (((cfg3.win 4).blk t).view.emb (ix2 (0 : Fin 1) q)) = _
    refine (congrArg (V c main_v72) (funext fun a => Fin.ext ?_)).trans ((hμ q).trans (congrArg μ (funext fun a => Fin.ext ?_)))
    · match a with
      | ⟨0, _⟩ => show win3_4.index t (0 : Fin 2) * 1 + 1 * 0 = 0; omega
      | ⟨1, _⟩ => show win3_4.index t (1 : Fin 2) * 128 + 1 * q.val = q.val; omega
    · match a with
      | ⟨0, _⟩ => show q.val = win3_6.index t (1 : Fin 2) * 128 + 1 * q.val; omega
  · show V c main_v70 (((cfg3.win 2).blk t).view.emb (ix2 (0 : Fin 1) q)) = _
    refine (congrArg (V c main_v70) (funext fun a => Fin.ext ?_)).trans ((hγ q).trans (congrArg γ (funext fun a => Fin.ext ?_)))
    · match a with
      | ⟨0, _⟩ => show win3_2.index t (0 : Fin 2) * 1 + 1 * 0 = 0; omega
      | ⟨1, _⟩ => show win3_2.index t (1 : Fin 2) * 128 + 1 * q.val = q.val; omega
    · match a with
      | ⟨0, _⟩ => show q.val = win3_6.index t (1 : Fin 2) * 128 + 1 * q.val; omega
  · show V c main_v71 (((cfg3.win 3).blk t).view.emb (ix2 (0 : Fin 1) q)) = _
    refine (congrArg (V c main_v71) (funext fun a => Fin.ext ?_)).trans ((hβ q).trans (congrArg β (funext fun a => Fin.ext ?_)))
    · match a with
      | ⟨0, _⟩ => show win3_3.index t (0 : Fin 2) * 1 + 1 * 0 = 0; omega
      | ⟨1, _⟩ => show win3_3.index t (1 : Fin 2) * 128 + 1 * q.val = q.val; omega
    · match a with
      | ⟨0, _⟩ => show q.val = win3_6.index t (1 : Fin 2) * 128 + 1 * q.val; omega

/-- An index of the output is in point t's block iff each coordinate is in the block's range. -/
theorem in_block (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v74).slice (win3_6.rect t)).set ↔ _
  rw [View.set_slice_whole, Rect.mem_set_unit]
  exact Iff.rfl

/-- Every entry of the output is in the block of the point that holds its row. -/
theorem covered (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : grid3.N = 20 := N_3
  have hlt : (i 0).val / 5000 < grid3.N := by omega
  obtain ⟨-, -, -, -, -, -, -, -, -, -, -, -, e12, e13⟩ := blocks_at ⟨(i 0).val / 5000, hlt⟩
  have e12' : win3_6.index ⟨(i 0).val / 5000, hlt⟩ (0 : Fin 2) = (i 0).val / 5000 := e12
  refine ⟨⟨(i 0).val / 5000, hlt⟩, flush3_6 _, ?_⟩
  rw [in_block]
  intro a
  match a with
  | ⟨0, _⟩ => show win3_6.index ⟨(i 0).val / 5000, hlt⟩ (0 : Fin 2) * 5000 ≤ (i 0).val ∧ (i 0).val < win3_6.index ⟨(i 0).val / 5000, hlt⟩ (0 : Fin 2) * 5000 + 5000; omega
  | ⟨1, _⟩ => show win3_6.index ⟨(i 0).val / 5000, hlt⟩ (1 : Fin 2) * 128 ≤ (i 1).val ∧ (i 1).val < win3_6.index ⟨(i 0).val / 5000, hlt⟩ (1 : Fin 2) * 128 + 128; omega

/-- The output array after the region: the normalised, clipped input, for the column vectors the parameter rows lay out. -/
theorem result (c : Dev nD) (b γ β μ σ2 : GcnSpec.Column)
    (hb : ∀ q : Fin 128, V c main_v69 (ix2 (0 : Fin 1) q) = b (ix1 q)) (hγ : ∀ q : Fin 128, V c main_v70 (ix2 (0 : Fin 1) q) = γ (ix1 q))
    (hβ : ∀ q : Fin 128, V c main_v71 (ix2 (0 : Fin 1) q) = β (ix1 q)) (hμ : ∀ q : Fin 128, V c main_v72 (ix2 (0 : Fin 1) q) = μ (ix1 q))
    (hσ2 : ∀ q : Fin 128, V c main_v73 (ix2 (0 : Fin 1) q) = σ2 (ix1 q)) :
    (dat3 V c).arrAt 6 cfg3.N = GcnSpec.normClip (V c main_v68) b γ β μ σ2 :=
  (dat3 V c).arrAt_eq_of_cover 6 (GcnSpec.normClip (V c main_v68) b γ β μ σ2) (fun t _ => written V c b γ β μ σ2 hb hγ hβ hμ hσ2 t) covered

end Cert.KernelIdeal.Normalise3

end
-- ==== Proof.Normalise5.lean ====
/-
  Normalisation region 5: after its twenty grid points, the output array is the input array with the bias added, each
  column normalised by its running mean and variance, scaled, shifted, and clipped below at zero.

  Point t loads rows 5000·t … 5000·t + 4999 of the input and the five 1 × 128 parameter rows, and writes back the same
  rows of the output. Each parameter row is a length-128 column vector laid out as one row; the twenty row ranges
  partition the 100000 rows.
-/
import proofs.«115828_j12532714570571_1_alg».proof.Proof.Gen.KernelIdeal.Frame
import proofs.«115828_j12532714570571_1_alg».proof.Proof.KernelPoint

set_option maxRecDepth 16384

noncomputable section

namespace Cert.KernelIdeal.Normalise5

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: point t takes row block t of the input and of the output, and the one block of each parameter row. -/
theorem blocks_at : ∀ t : Fin cfg5.N, win5_0.index t (0 : Fin 2) = t.val ∧ win5_0.index t (1 : Fin 2) = 0
    ∧ win5_1.index t (1 : Fin 2) = 0 ∧ win5_2.index t (1 : Fin 2) = 0 ∧ win5_3.index t (1 : Fin 2) = 0
    ∧ win5_4.index t (1 : Fin 2) = 0 ∧ win5_5.index t (1 : Fin 2) = 0
    ∧ win5_1.index t (0 : Fin 2) = 0 ∧ win5_2.index t (0 : Fin 2) = 0 ∧ win5_3.index t (0 : Fin 2) = 0
    ∧ win5_4.index t (0 : Fin 2) = 0 ∧ win5_5.index t (0 : Fin 2) = 0
    ∧ win5_6.index t (0 : Fin 2) = t.val ∧ win5_6.index t (1 : Fin 2) = 0 :=
  (by decide +kernel : ∀ t : Fin grid5.N, _)

/-- What point t writes back is its block of the normalised array. -/
theorem written (c : Dev nD) (b γ β μ σ2 : GcnSpec.Column)
    (hb : ∀ q : Fin 128, V c main_v89 (ix2 (0 : Fin 1) q) = b (ix1 q)) (hγ : ∀ q : Fin 128, V c main_v90 (ix2 (0 : Fin 1) q) = γ (ix1 q))
    (hβ : ∀ q : Fin 128, V c main_v91 (ix2 (0 : Fin 1) q) = β (ix1 q)) (hμ : ∀ q : Fin 128, V c main_v92 (ix2 (0 : Fin 1) q) = μ (ix1 q))
    (hσ2 : ∀ q : Fin 128, V c main_v93 (ix2 (0 : Fin 1) q) = σ2 (ix1 q)) (t : Fin cfg5.N) :
    (dat5 V c).flushed 6 t = ((cfg5.win 6).blk t).view.read (Elt Ideal) (GcnSpec.normClip (V c main_v88) b γ β μ σ2) := by
  show (cfg5.win 6).cut (grid5.coords t) ((dat5 V c).after 6 t) = _
  rw [after5_6]
  unfold out5_6
  rw [View.canon_unit_zero origin]
  simp only [View.ld_unit_zero (S := S5000x128) origin, View.ld_unit_zero (S := S1x128) origin]
  obtain ⟨e0, e1, e2, e3, e4, e5, e6, e7, e8, e9, e10, e11, e12, e13⟩ := blocks_at t
  refine funext fun (j : S5000x128.Idx) => ?_
  obtain ⟨p, q, rfl⟩ : ∃ (p : Fin 5000) (q : Fin 128), j = ix2 p q := ⟨j 0, j 1, eq_ix2 j⟩
  show k5_pay1 (F := Ideal) (iblk5 V c 0 t) (iblk5 V c 1 t) (iblk5 V c 5 t) (iblk5 V c 4 t) (iblk5 V c 2 t) (iblk5 V c 3 t) (ix2 p q)
    = GcnSpec.normClip (V c main_v88) b γ β μ σ2 (((cfg5.win 6).blk t).view.emb (ix2 p q))
  rw [Point.normalise5_eq]
  refine Point.normalise_block (V c main_v88) b γ β μ σ2 _ _ _ _ _ _ p q _ ?_ ?_ ?_ ?_ ?_ ?_
  · show V c main_v88 (((cfg5.win 0).blk t).view.emb (ix2 p q)) = _
    refine congrArg (V c main_v88) (funext fun a => Fin.ext ?_)
    match a with
    | ⟨0, _⟩ => show win5_0.index t (0 : Fin 2) * 5000 + 1 * p.val = win5_6.index t (0 : Fin 2) * 5000 + 1 * p.val; omega
    | ⟨1, _⟩ => show win5_0.index t (1 : Fin 2) * 128 + 1 * q.val = win5_6.index t (1 : Fin 2) * 128 + 1 * q.val; omega
  · show V c main_v89 (((cfg5.win 1).blk t).view.emb (ix2 (0 : Fin 1) q)) = _
    refine (congrArg (V c main_v89) (funext fun a => Fin.ext ?_)).trans ((hb q).trans (congrArg b (funext fun a => Fin.ext ?_)))
    · match a with
      | ⟨0, _⟩ => show win5_1.index t (0 : Fin 2) * 1 + 1 * 0 = 0; omega
      | ⟨1, _⟩ => show win5_1.index t (1 : Fin 2) * 128 + 1 * q.val = q.val; omega
    · match a with
      | ⟨0, _⟩ => show q.val = win5_6.index t (1 : Fin 2) * 128 + 1 * q.val; omega
  · show V c main_v93 (((cfg5.win 5).blk t).view.emb (ix2 (0 : Fin 1) q)) = _
    refine (congrArg (V c main_v93) (funext fun a => Fin.ext ?_)).trans ((hσ2 q).trans (congrArg σ2 (funext fun a => Fin.ext ?_)))
    · match a with
      | ⟨0, _⟩ => show win5_5.index t (0 : Fin 2) * 1 + 1 * 0 = 0; omega
      | ⟨1, _⟩ => show win5_5.index t (1 : Fin 2) * 128 + 1 * q.val = q.val; omega
    · match a with
      | ⟨0, _⟩ => show q.val = win5_6.index t (1 : Fin 2) * 128 + 1 * q.val; omega
  · show V c main_v92 (((cfg5.win 4).blk t).view.emb (ix2 (0 : Fin 1) q)) = _
    refine (congrArg (V c main_v92) (funext fun a => Fin.ext ?_)).trans ((hμ q).trans (congrArg μ (funext fun a => Fin.ext ?_)))
    · match a with
      | ⟨0, _⟩ => show win5_4.index t (0 : Fin 2) * 1 + 1 * 0 = 0; omega
      | ⟨1, _⟩ => show win5_4.index t (1 : Fin 2) * 128 + 1 * q.val = q.val; omega
    · match a with
      | ⟨0, _⟩ => show q.val = win5_6.index t (1 : Fin 2) * 128 + 1 * q.val; omega
  · show V c main_v90 (((cfg5.win 2).blk t).view.emb (ix2 (0 : Fin 1) q)) = _
    refine (congrArg (V c main_v90) (funext fun a => Fin.ext ?_)).trans ((hγ q).trans (congrArg γ (funext fun a => Fin.ext ?_)))
    · match a with
      | ⟨0, _⟩ => show win5_2.index t (0 : Fin 2) * 1 + 1 * 0 = 0; omega
      | ⟨1, _⟩ => show win5_2.index t (1 : Fin 2) * 128 + 1 * q.val = q.val; omega
    · match a with
      | ⟨0, _⟩ => show q.val = win5_6.index t (1 : Fin 2) * 128 + 1 * q.val; omega
  · show V c main_v91 (((cfg5.win 3).blk t).view.emb (ix2 (0 : Fin 1) q)) = _
    refine (congrArg (V c main_v91) (funext fun a => Fin.ext ?_)).trans ((hβ q).trans (congrArg β (funext fun a => Fin.ext ?_)))
    · match a with
      | ⟨0, _⟩ => show win5_3.index t (0 : Fin 2) * 1 + 1 * 0 = 0; omega
      | ⟨1, _⟩ => show win5_3.index t (1 : Fin 2) * 128 + 1 * q.val = q.val; omega
    · match a with
      | ⟨0, _⟩ => show q.val = win5_6.index t (1 : Fin 2) * 128 + 1 * q.val; omega

/-- An index of the output is in point t's block iff each coordinate is in the block's range. -/
theorem in_block (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v94).slice (win5_6.rect t)).set ↔ _
  rw [View.set_slice_whole, Rect.mem_set_unit]
  exact Iff.rfl

/-- Every entry of the output is in the block of the point that holds its row. -/
theorem covered (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : grid5.N = 20 := N_5
  have hlt : (i 0).val / 5000 < grid5.N := by omega
  obtain ⟨-, -, -, -, -, -, -, -, -, -, -, -, e12, e13⟩ := blocks_at ⟨(i 0).val / 5000, hlt⟩
  have e12' : win5_6.index ⟨(i 0).val / 5000, hlt⟩ (0 : Fin 2) = (i 0).val / 5000 := e12
  refine ⟨⟨(i 0).val / 5000, hlt⟩, flush5_6 _, ?_⟩
  rw [in_block]
  intro a
  match a with
  | ⟨0, _⟩ => show win5_6.index ⟨(i 0).val / 5000, hlt⟩ (0 : Fin 2) * 5000 ≤ (i 0).val ∧ (i 0).val < win5_6.index ⟨(i 0).val / 5000, hlt⟩ (0 : Fin 2) * 5000 + 5000; omega
  | ⟨1, _⟩ => show win5_6.index ⟨(i 0).val / 5000, hlt⟩ (1 : Fin 2) * 128 ≤ (i 1).val ∧ (i 1).val < win5_6.index ⟨(i 0).val / 5000, hlt⟩ (1 : Fin 2) * 128 + 128; omega

/-- The output array after the region: the normalised, clipped input, for the column vectors the parameter rows lay out. -/
theorem result (c : Dev nD) (b γ β μ σ2 : GcnSpec.Column)
    (hb : ∀ q : Fin 128, V c main_v89 (ix2 (0 : Fin 1) q) = b (ix1 q)) (hγ : ∀ q : Fin 128, V c main_v90 (ix2 (0 : Fin 1) q) = γ (ix1 q))
    (hβ : ∀ q : Fin 128, V c main_v91 (ix2 (0 : Fin 1) q) = β (ix1 q)) (hμ : ∀ q : Fin 128, V c main_v92 (ix2 (0 : Fin 1) q) = μ (ix1 q))
    (hσ2 : ∀ q : Fin 128, V c main_v93 (ix2 (0 : Fin 1) q) = σ2 (ix1 q)) :
    (dat5 V c).arrAt 6 cfg5.N = GcnSpec.normClip (V c main_v88) b γ β μ σ2 :=
  (dat5 V c).arrAt_eq_of_cover 6 (GcnSpec.normClip (V c main_v88) b γ β μ σ2) (fun t _ => written V c b γ β μ σ2 hb hγ hβ hμ hσ2 t) covered

end Cert.KernelIdeal.Normalise5

end
-- ==== Proof.ReadOut.lean ====
/-
  The read-out region: its single grid point loads the whole 512 × 128 graph features, the whole 128 × 2 matrix and the
  1 × 2 bias row, and writes back the whole 512 × 2 result: the product plus the bias.
-/
import proofs.«115828_j12532714570571_1_alg».proof.Proof.Gen.KernelIdeal.Frame
import proofs.«115828_j12532714570571_1_alg».proof.Proof.KernelPoint

set_option maxRecDepth 16384

noncomputable section

namespace Cert.KernelIdeal.ReadOut

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Every window's only block is block (0, 0). -/
theorem blocks_at : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- What the point writes back is the whole read-out. -/
theorem written (c : Dev nD) (bl : (⟨1, ![2]⟩ : Shape).Idx → Elt Ideal .f32)
    (hbl : ∀ r : Fin 2, V c main_v107 (ix2 (0 : Fin 1) r) = bl (ix1 r)) (t : Fin cfg6.N) :
    (dat6 V c).flushed 3 t = ((cfg6.win 3).blk t).view.read (Elt Ideal) (GcnSpec.readOut (V c main_v106) (V c main_arg22) bl) := by
  show (cfg6.win 3).cut (grid6.coords t) ((dat6 V c).after 3 t) = _
  rw [after6_3]
  unfold out6_3
  rw [View.canon_unit_zero origin]
  simp only [View.ld_unit_zero (S := S512x128) origin, View.ld_unit_zero (S := S128x2) origin, View.ld_unit_zero (S := S1x2) origin]
  obtain ⟨e0, e1, e2, e3, e4, e5, e6, e7⟩ := blocks_at t
  refine funext fun (j : S512x2.Idx) => ?_
  obtain ⟨p, r, rfl⟩ : ∃ (p : Fin 512) (r : Fin 2), j = ix2 p r := ⟨j 0, j 1, eq_ix2 j⟩
  show k6_pay1 (F := Ideal) (iblk6 V c 0 t) (iblk6 V c 1 t) (iblk6 V c 2 t) (ix2 p r)
    = GcnSpec.readOut (V c main_v106) (V c main_arg22) bl (((cfg6.win 3).blk t).view.emb (ix2 p r))
  refine Point.readout_block (V c main_v106) (V c main_arg22) bl _ _ _ p r _ (fun q => ?_) (fun q => ?_) ?_
  · show V c main_v106 (((cfg6.win 0).blk t).view.emb (ix2 p q)) = _
    refine congrArg (V c main_v106) (funext fun a => Fin.ext ?_)
    match a with
    | ⟨0, _⟩ => show win6_0.index t (0 : Fin 2) * 512 + 1 * p.val = win6_3.index t (0 : Fin 2) * 512 + 1 * p.val; omega
    | ⟨1, _⟩ => show win6_0.index t (1 : Fin 2) * 128 + 1 * q.val = q.val; omega
  · show V c main_arg22 (((cfg6.win 1).blk t).view.emb (ix2 q r)) = _
    refine congrArg (V c main_arg22) (funext fun a => Fin.ext ?_)
    match a with
    | ⟨0, _⟩ => show win6_1.index t (0 : Fin 2) * 128 + 1 * q.val = q.val; omega
    | ⟨1, _⟩ => show win6_1.index t (1 : Fin 2) * 2 + 1 * r.val = win6_3.index t (1 : Fin 2) * 2 + 1 * r.val; omega
  · show V c main_v107 (((cfg6.win 2).blk t).view.emb (ix2 (0 : Fin 1) r)) = _
    refine (congrArg (V c main_v107) (funext fun a => Fin.ext ?_)).trans ((hbl r).trans (congrArg bl (funext fun a => Fin.ext ?_)))
    · match a with
      | ⟨0, _⟩ => show win6_2.index t (0 : Fin 2) * 1 + 1 * 0 = 0; omega
      | ⟨1, _⟩ => show win6_2.index t (1 : Fin 2) * 2 + 1 * r.val = r.val; omega
    · match a with
      | ⟨0, _⟩ => show r.val = win6_3.index t (1 : Fin 2) * 2 + 1 * r.val; omega

/-- An index of the result is in the point's block iff each coordinate is in the block's range. -/
theorem in_block (t : Fin cfg6.N) (i : S512x2.Idx) :
    i ∈ ((cfg6.win 3).blk t).view.set ↔ ∀ a : Fin 2, win6_3.index t a * S512x2.size a ≤ (i a).val ∧ (i a).val < win6_3.index t a * S512x2.size a + S512x2.size a := by
  show i ∈ ((View.whole main_v108).slice (win6_3.rect t)).set ↔ _
  rw [View.set_slice_whole, Rect.mem_set_unit]
  exact Iff.rfl

/-- Every entry of the result is in the one block. -/
theorem covered (i : S512x2.Idx) : ∃ t : Fin cfg6.N, (cfg6.win 3).flush t = true ∧ i ∈ ((cfg6.win 3).blk t).view.set := by
  have hi0 : (i 0).val < 512 := (i 0).isLt
  have hi1 : (i 1).val < 2 := (i 1).isLt
  obtain ⟨-, -, -, -, -, -, e6, e7⟩ := blocks_at t6_0
  refine ⟨t6_0, flush6_3 _, ?_⟩
  rw [in_block]
  intro a
  match a with
  | ⟨0, _⟩ => show win6_3.index t6_0 (0 : Fin 2) * 512 ≤ (i 0).val ∧ (i 0).val < win6_3.index t6_0 (0 : Fin 2) * 512 + 512; omega
  | ⟨1, _⟩ => show win6_3.index t6_0 (1 : Fin 2) * 2 ≤ (i 1).val ∧ (i 1).val < win6_3.index t6_0 (1 : Fin 2) * 2 + 2; omega

/-- The result array after the region. -/
theorem result (c : Dev nD) (bl : (⟨1, ![2]⟩ : Shape).Idx → Elt Ideal .f32)
    (hbl : ∀ r : Fin 2, V c main_v107 (ix2 (0 : Fin 1) r) = bl (ix1 r)) :
    (dat6 V c).arrAt 3 cfg6.N = GcnSpec.readOut (V c main_v106) (V c main_arg22) bl :=
  (dat6 V c).arrAt_eq_of_cover 3 (GcnSpec.readOut (V c main_v106) (V c main_arg22) bl) (fun t _ => written V c bl hbl t) covered

end Cert.KernelIdeal.ReadOut

end
-- ==== Proof.RefStages.lean ====
/-
  The reference program's dense stages are the whole-array functions of the specification.

  Read one operation at a time, the reference multiplies the node features by the layer's weights (a sum over the 128
  shared positions), and, after the edge mixing, adds the bias, subtracts the running mean, multiplies by the inverse
  square root of the running variance plus ε, by the scale, adds the shift and clips at zero, each length-128 parameter
  first spread over all rows. The last stage multiplies the per-graph averages by the read-out matrix and adds its bias.
-/
import proofs.«115828_j12532714570571_1_alg».proof.Proof.Gen.ReferenceIdeal.Read
import proofs.«115828_j12532714570571_1_alg».proof.Proof.Spec

noncomputable section

open scoped BigOperators

namespace Cert.ReferenceIdeal.Stages

open Cert.ReferenceIdeal Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S100000, .i32⟩ : BufTy).Contents (Elt Ideal))
    (x4 : (⟨S128x128, .f32⟩ : BufTy).Contents (Elt Ideal)) (x5 x6 x7 x8 x9 : (⟨S128, .f32⟩ : BufTy).Contents (Elt Ideal))
    (x10 : (⟨S128x128, .f32⟩ : BufTy).Contents (Elt Ideal)) (x11 x12 x13 x14 x15 : (⟨S128, .f32⟩ : BufTy).Contents (Elt Ideal))
    (x16 : (⟨S128x128, .f32⟩ : BufTy).Contents (Elt Ideal)) (x17 x18 x19 x20 x21 : (⟨S128, .f32⟩ : BufTy).Contents (Elt Ideal))
    (x22 : (⟨S128x2, .f32⟩ : BufTy).Contents (Elt Ideal)) (x23 : (⟨S2, .f32⟩ : BufTy).Contents (Elt Ideal))

/-- The reference's matrix product at this layer is the node features times the weights, entry by entry. -/
theorem project1 : val_main_v35 (F := Ideal) x0 x4 = GcnSpec.nodesTimes x0 x4 := by
  funext i
  rw [val_main_v35_apply]
  unfold GcnSpec.nodesTimes
  refine Finset.sum_congr rfl fun k _ => ?_
  have el : lidx_main_v35 i k = ix2 (i 0) k := funext fun a => by match a with | ⟨0, _⟩ => rfl | ⟨1, _⟩ => rfl
  have er : ridx_main_v35 i k = ix2 k (i 1) := funext fun a => by match a with | ⟨0, _⟩ => rfl | ⟨1, _⟩ => rfl
  rw [el, er]
  rfl

/-- The reference's bias, normalisation, scale, shift and clip at this layer, entry by entry: each length-128 parameter
    is spread over the rows, so entry (r, j) meets the parameter's entry j. -/
theorem normalise1 : val_main_v67 (F := Ideal) x0 x1 x2 x4 x5 x6 x7 x8 x9 = GcnSpec.normClip (val_main_v48 (F := Ideal) x0 x1 x2 x4) x5 x6 x7 x8 x9 := by
  funext i
  rw [val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply,
    val_main_cst_10_apply, val_main_v54_apply, val_main_v53_apply, val_main_v52_apply, val_main_v51_apply, val_main_v50_apply, val_main_v49_apply, val_main_call1_v0_apply, val_main_call1_cst_apply]
  have eb : idx_main_v49 (idx_main_v50 i) = ix1 (i 1) := funext fun a => by match a with | ⟨0, _⟩ => rfl
  have eμ : idx_main_v52 (idx_main_v53 i) = ix1 (i 1) := funext fun a => by match a with | ⟨0, _⟩ => rfl
  have eσ : idx_main_v58 (idx_main_v59 i) = ix1 (i 1) := funext fun a => by match a with | ⟨0, _⟩ => rfl
  have eγ : idx_main_v61 (idx_main_v62 i) = ix1 (i 1) := funext fun a => by match a with | ⟨0, _⟩ => rfl
  have eβ : idx_main_v64 (idx_main_v65 i) = ix1 (i 1) := funext fun a => by match a with | ⟨0, _⟩ => rfl
  rw [eb, eμ, eσ, eγ, eβ]
  rfl

/-- The reference's matrix product at this layer is the node features times the weights, entry by entry. -/
theorem project2 : val_main_v68 (F := Ideal) x0 x1 x2 x4 x5 x6 x7 x8 x9 x10 = GcnSpec.nodesTimes (val_main_v67 (F := Ideal) x0 x1 x2 x4 x5 x6 x7 x8 x9) x10 := by
  funext i
  rw [val_main_v68_apply]
  unfold GcnSpec.nodesTimes
  refine Finset.sum_congr rfl fun k _ => ?_
  have el : lidx_main_v68 i k = ix2 (i 0) k := funext fun a => by match a with | ⟨0, _⟩ => rfl | ⟨1, _⟩ => rfl
  have er : ridx_main_v68 i k = ix2 k (i 1) := funext fun a => by match a with | ⟨0, _⟩ => rfl | ⟨1, _⟩ => rfl
  rw [el, er]
  rfl

/-- The reference's bias, normalisation, scale, shift and clip at this layer, entry by entry: each length-128 parameter
    is spread over the rows, so entry (r, j) meets the parameter's entry j. -/
theorem normalise2 : val_main_v100 (F := Ideal) x0 x1 x2 x4 x5 x6 x7 x8 x9 x10 x11 x12 x13 x14 x15 = GcnSpec.normClip (val_main_v81 (F := Ideal) x0 x1 x2 x4 x5 x6 x7 x8 x9 x10) x11 x12 x13 x14 x15 := by
  funext i
  rw [val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply,
    val_main_cst_14_apply, val_main_v87_apply, val_main_v86_apply, val_main_v85_apply, val_main_v84_apply, val_main_v83_apply, val_main_v82_apply, val_main_call2_v0_apply, val_main_call2_cst_apply]
  have eb : idx_main_v82 (idx_main_v83 i) = ix1 (i 1) := funext fun a => by match a with | ⟨0, _⟩ => rfl
  have eμ : idx_main_v85 (idx_main_v86 i) = ix1 (i 1) := funext fun a => by match a with | ⟨0, _⟩ => rfl
  have eσ : idx_main_v91 (idx_main_v92 i) = ix1 (i 1) := funext fun a => by match a with | ⟨0, _⟩ => rfl
  have eγ : idx_main_v94 (idx_main_v95 i) = ix1 (i 1) := funext fun a => by match a with | ⟨0, _⟩ => rfl
  have eβ : idx_main_v97 (idx_main_v98 i) = ix1 (i 1) := funext fun a => by match a with | ⟨0, _⟩ => rfl
  rw [eb, eμ, eσ, eγ, eβ]
  rfl

/-- The reference's matrix product at this layer is the node features times the weights, entry by entry. -/
theorem project3 : val_main_v101 (F := Ideal) x0 x1 x2 x4 x5 x6 x7 x8 x9 x10 x11 x12 x13 x14 x15 x16 = GcnSpec.nodesTimes (val_main_v100 (F := Ideal) x0 x1 x2 x4 x5 x6 x7 x8 x9 x10 x11 x12 x13 x14 x15) x16 := by
  funext i
  rw [val_main_v101_apply]
  unfold GcnSpec.nodesTimes
  refine Finset.sum_congr rfl fun k _ => ?_
  have el : lidx_main_v101 i k = ix2 (i 0) k := funext fun a => by match a with | ⟨0, _⟩ => rfl | ⟨1, _⟩ => rfl
  have er : ridx_main_v101 i k = ix2 k (i 1) := funext fun a => by match a with | ⟨0, _⟩ => rfl | ⟨1, _⟩ => rfl
  rw [el, er]
  rfl

/-- The reference's bias, normalisation, scale, shift and clip at this layer, entry by entry: each length-128 parameter
    is spread over the rows, so entry (r, j) meets the parameter's entry j. -/
theorem normalise3 : val_main_v133 (F := Ideal) x0 x1 x2 x4 x5 x6 x7 x8 x9 x10 x11 x12 x13 x14 x15 x16 x17 x18 x19 x20 x21 = GcnSpec.normClip (val_main_v114 (F := Ideal) x0 x1 x2 x4 x5 x6 x7 x8 x9 x10 x11 x12 x13 x14 x15 x16) x17 x18 x19 x20 x21 := by
  funext i
  rw [val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply,
    val_main_cst_18_apply, val_main_v120_apply, val_main_v119_apply, val_main_v118_apply, val_main_v117_apply, val_main_v116_apply, val_main_v115_apply, val_main_call3_v0_apply, val_main_call3_cst_apply]
  have eb : idx_main_v115 (idx_main_v116 i) = ix1 (i 1) := funext fun a => by match a with | ⟨0, _⟩ => rfl
  have eμ : idx_main_v118 (idx_main_v119 i) = ix1 (i 1) := funext fun a => by match a with | ⟨0, _⟩ => rfl
  have eσ : idx_main_v124 (idx_main_v125 i) = ix1 (i 1) := funext fun a => by match a with | ⟨0, _⟩ => rfl
  have eγ : idx_main_v127 (idx_main_v128 i) = ix1 (i 1) := funext fun a => by match a with | ⟨0, _⟩ => rfl
  have eβ : idx_main_v130 (idx_main_v131 i) = ix1 (i 1) := funext fun a => by match a with | ⟨0, _⟩ => rfl
  rw [eb, eμ, eσ, eγ, eβ]
  rfl

/-- The reference's last stage: the per-graph averages times the read-out matrix, plus the bias spread over the rows. -/
theorem readout : val_main_v149 (F := Ideal) x0 x1 x2 x3 x4 x5 x6 x7 x8 x9 x10 x11 x12 x13 x14 x15 x16 x17 x18 x19 x20 x21 x22 x23 = GcnSpec.readOut (val_main_v145 (F := Ideal) x0 x1 x2 x3 x4 x5 x6 x7 x8 x9 x10 x11 x12 x13 x14 x15 x16 x17 x18 x19 x20 x21) x22 x23 := by
  funext i
  rw [val_main_v149_apply, val_main_v148_apply, val_main_v147_apply, val_main_v146_apply]
  unfold GcnSpec.readOut
  have eb : idx_main_v147 (idx_main_v148 i) = ix1 (i 1) := funext fun a => by match a with | ⟨0, _⟩ => rfl
  rw [eb]
  refine congrArg (· + x23 (ix1 (i 1))) (Finset.sum_congr rfl fun k _ => ?_)
  have el : lidx_main_v146 i k = ix2 (i 0) k := funext fun a => by match a with | ⟨0, _⟩ => rfl | ⟨1, _⟩ => rfl
  have er : ridx_main_v146 i k = ix2 k (i 1) := funext fun a => by match a with | ⟨0, _⟩ => rfl | ⟨1, _⟩ => rfl
  rw [el, er]
  rfl

end Cert.ReferenceIdeal.Stages

end
-- ==== Proof.Fold.lean ====
/-
  The idealized kernel's result array is the reference's last stage of the launch arguments.

  Walk the contents of the TensorCore's buffers from the launch to the return. Before the first region the host
  operations compute, from the edge list and the edge weights, the source and target node of every edge (with one
  self-loop per node appended) and the symmetric normalisation weight of every edge: the same operations as the
  reference's. Then, three times: a projection region leaves the node features times the layer's weights; a stretch of
  host operations mixes rows along the edges (the same operations as the reference's, applied to equal operands, so
  equal results) and lays each length-128 parameter out as a 1 × 128 row; a normalisation region leaves the biased,
  normalised, scaled, shifted and clipped array. A last stretch averages rows per graph and the read-out region applies
  the last matrix and bias. A buffer that a segment does not write keeps its contents across the segment. At every
  boundary the buffer of interest holds the reference's corresponding stage of the arguments as launched.
-/
import proofs.«115828_j12532714570571_1_alg».proof.Proof.Gen.KernelIdeal.Frame
import proofs.«115828_j12532714570571_1_alg».proof.Proof.Project0
import proofs.«115828_j12532714570571_1_alg».proof.Proof.Project2
import proofs.«115828_j12532714570571_1_alg».proof.Proof.Project4
import proofs.«115828_j12532714570571_1_alg».proof.Proof.Normalise1
import proofs.«115828_j12532714570571_1_alg».proof.Proof.Normalise3
import proofs.«115828_j12532714570571_1_alg».proof.Proof.Normalise5
import proofs.«115828_j12532714570571_1_alg».proof.Proof.ReadOut
import proofs.«115828_j12532714570571_1_alg».proof.Proof.RefStages

set_option maxRecDepth 16384

noncomputable section

namespace Cert.KernelIdeal.Fold

open Cert.KernelIdeal Cert.KernelIdeal.Gen Idealize.ShloMosaic Idealize.ShloMosaic.TcCoe Idealize.ShloMosaic.ValueIdx
open Cert.ReferenceIdeal.Read (val_main_v3 val_main_v7 val_main_v34 val_main_v35 val_main_v48 val_main_v67 val_main_v68 val_main_v81
  val_main_v100 val_main_v101 val_main_v114 val_main_v133 val_main_v145 val_main_v149)

variable (m : (ℓ : Loc nD τ sig) → Buf (Elt Ideal) ℓ) (ρ : Dev nD → PrngReg) (c : Dev nD)

/-- What a buffer holds at launch on core `c`. -/
abbrev atLaunch (b : Ref sig .tc) : Buf (Elt Ideal) ((c : Thread nD τ).loc b) := m ((c : Thread nD τ).loc b)

/-- No operation of a host stretch writes the buffer: each operation's one written buffer is another one. -/
macro "not_written" : tactic => `(tactic| (
  simp only [hostOps0, hostOps0_1, hostOps0_2, hostOps1, hostOps3, hostOps5, hostOps6, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## Buffers that a run of segments leaves alone -/

theorem launch_arg0 : W3 m ρ c (Proc.devRef .tc main_arg0) = atLaunch m c main_arg0 :=
  calc W3 m ρ c (Proc.devRef .tc main_arg0)
    _ = W2 m ρ c (Proc.devRef .tc main_arg0) := StableHlo.after_of_forall_not_mem (b := Proc.devRef .tc main_arg0) _ _ (List.forall_iff_forall_mem.mp (by not_written))
    _ = W1 m ρ c (Proc.devRef .tc main_arg0) := StableHlo.after_of_forall_not_mem (b := Proc.devRef .tc main_arg0) _ _ (List.forall_iff_forall_mem.mp (by not_written))
    _ = W0 m ρ c (Proc.devRef .tc main_arg0) := StableHlo.after_of_forall_not_mem (b := Proc.devRef .tc main_arg0) _ _ (List.forall_iff_forall_mem.mp (by not_written))
    _ = atLaunch m c main_arg0 := rfl

theorem launch_arg3 : W3 m ρ c (Proc.devRef .tc main_arg3) = atLaunch m c main_arg3 :=
  calc W3 m ρ c (Proc.devRef .tc main_arg3)
    _ = W2 m ρ c (Proc.devRef .tc main_arg3) := StableHlo.after_of_forall_not_mem (b := Proc.devRef .tc main_arg3) _ _ (List.forall_iff_forall_mem.mp (by not_written))
    _ = W1 m ρ c (Proc.devRef .tc main_arg3) := StableHlo.after_of_forall_not_mem (b := Proc.devRef .tc main_arg3) _ _ (List.forall_iff_forall_mem.mp (by not_written))
    _ = W0 m ρ c (Proc.devRef .tc main_arg3) := StableHlo.after_of_forall_not_mem (b := Proc.devRef .tc main_arg3) _ _ (List.forall_iff_forall_mem.mp (by not_written))
    _ = atLaunch m c main_arg3 := rfl

theorem launch_arg4 : W3 m ρ c (Proc.devRef .tc main_arg4) = atLaunch m c main_arg4 :=
  calc W3 m ρ c (Proc.devRef .tc main_arg4)
    _ = W2 m ρ c (Proc.devRef .tc main_arg4) := StableHlo.after_of_forall_not_mem (b := Proc.devRef .tc main_arg4) _ _ (List.forall_iff_forall_mem.mp (by not_written))
    _ = W1 m ρ c (Proc.devRef .tc main_arg4) := StableHlo.after_of_forall_not_mem (b := Proc.devRef .tc main_arg4) _ _ (List.forall_iff_forall_mem.mp (by not_written))
    _ = W0 m ρ c (Proc.devRef .tc main_arg4) := StableHlo.after_of_forall_not_mem (b := Proc.devRef .tc main_arg4) _ _ (List.forall_iff_forall_mem.mp (by not_written))
    _ = atLaunch m c main_arg4 := rfl

theorem launch_arg5 : W3 m ρ c (Proc.devRef .tc main_arg5) = atLaunch m c main_arg5 :=
  calc W3 m ρ c (Proc.devRef .tc main_arg5)
    _ = W2 m ρ c (Proc.devRef .tc main_arg5) := StableHlo.after_of_forall_not_mem (b := Proc.devRef .tc main_arg5) _ _ (List.forall_iff_forall_mem.mp (by not_written))
    _ = W1 m ρ c (Proc.devRef .tc main_arg5) := StableHlo.after_of_forall_not_mem (b := Proc.devRef .tc main_arg5) _ _ (List.forall_iff_forall_mem.mp (by not_written))
    _ = W0 m ρ c (Proc.devRef .tc main_arg5) := StableHlo.after_of_forall_not_mem (b := Proc.devRef .tc main_arg5) _ _ (List.forall_iff_forall_mem.mp (by not_written))
    _ = atLaunch m c main_arg5 := rfl

theorem launch_arg6 : W3 m ρ c (Proc.devRef .tc main_arg6) = atLaunch m c main_arg6 :=
  calc W3 m ρ c (Proc.devRef .tc main_arg6)
    _ = W2 m ρ c (Proc.devRef .tc main_arg6) := StableHlo.after_of_forall_not_mem (b := Proc.devRef .tc main_arg6) _ _ (List.forall_iff_forall_mem.mp (by not_written))
    _ = W1 m ρ c (Proc.devRef .tc main_arg6) := StableHlo.after_of_forall_not_mem (b := Proc.devRef .tc main_arg6) _ _ (List.forall_iff_forall_mem.mp (by not_written))
    _ = W0 m ρ c (Proc.devRef .tc main_arg6) := StableHlo.after_of_forall_not_mem (b := Proc.devRef .tc main_arg6) _ _ (List.forall_iff_forall_mem.mp (by not_written))
    _ = atLaunch m c main_arg6 := rfl

theorem launch_arg7 : W3 m ρ c (Proc.devRef .tc main_arg7) = atLaunch m c main_arg7 :=
  calc W3 m ρ c (Proc.devRef .tc main_arg7)
    _ = W2 m ρ c (Proc.devRef .tc main_arg7) := StableHlo.after_of_forall_not_mem (b := Proc.devRef .tc main_arg7) _ _ (List.forall_iff_forall_mem.mp (by not_written))
    _ = W1 m ρ c (Proc.devRef .tc main_arg7) := StableHlo.after_of_forall_not_mem (b := Proc.devRef .tc main_arg7) _ _ (List.forall_iff_forall_mem.mp (by not_written))
    _ = W0 m ρ c (Proc.devRef .tc main_arg7) := StableHlo.after_of_forall_not_mem (b := Proc.devRef .tc main_arg7) _ _ (List.forall_iff_forall_mem.mp (by not_written))
    _ = atLaunch m c main_arg7 := rfl

theorem launch_arg8 : W3 m ρ c (Proc.devRef .tc main_arg8) = atLaunch m c main_arg8 :=
  calc W3 m ρ c (Proc.devRef .tc main_arg8)
    _ = W2 m ρ c (Proc.devRef .tc main_arg8) := StableHlo.after_of_forall_not_mem (b := Proc.devRef .tc main_arg8) _ _ (List.forall_iff_forall_mem.mp (by not_written))
    _ = W1 m ρ c (Proc.devRef .tc main_arg8) := StableHlo.after_of_forall_not_mem (b := Proc.devRef .tc main_arg8) _ _ (List.forall_iff_forall_mem.mp (by not_written))
    _ = W0 m ρ c (Proc.devRef .tc main_arg8) := StableHlo.after_of_forall_not_mem (b := Proc.devRef .tc main_arg8) _ _ (List.forall_iff_forall_mem.mp (by not_written))
    _ = atLaunch m c main_arg8 := rfl

theorem launch_arg9 : W3 m ρ c (Proc.devRef .tc main_arg9) = atLaunch m c main_arg9 :=
  calc W3 m ρ c (Proc.devRef .tc main_arg9)
    _ = W2 m ρ c (Proc.devRef .tc main_arg9) := StableHlo.after_of_forall_not_mem (b := Proc.devRef .tc main_arg9) _ _ (List.forall_iff_forall_mem.mp (by not_written))
    _ = W1 m ρ c (Proc.devRef .tc main_arg9) := StableHlo.after_of_forall_not_mem (b := Proc.devRef .tc main_arg9) _ _ (List.forall_iff_forall_mem.mp (by not_written))
    _ = W0 m ρ c (Proc.devRef .tc main_arg9) := StableHlo.after_of_forall_not_mem (b := Proc.devRef .tc main_arg9) _ _ (List.forall_iff_forall_mem.mp (by not_written))
    _ = atLaunch m c main_arg9 := rfl

theorem launch_arg10 : W3 m ρ c (Proc.devRef .tc main_arg10) = atLaunch m c main_arg10 :=
  calc W3 m ρ c (Proc.devRef .tc main_arg10)
    _ = W2 m ρ c (Proc.devRef .tc main_arg10) := StableHlo.after_of_forall_not_mem (b := Proc.devRef .tc main_arg10) _ _ (List.forall_iff_forall_mem.mp (by not_written))
    _ = W1 m ρ c (Proc.devRef .tc main_arg10) := StableHlo.after_of_forall_not_mem (b := Proc.devRef .tc main_arg10) _ _ (List.forall_iff_forall_mem.mp (by not_written))
    _ = W0 m ρ c (Proc.devRef .tc main_arg10) := StableHlo.after_of_forall_not_mem (b := Proc.devRef .tc main_arg10) _ _ (List.forall_iff_forall_mem.mp (by not_written))
    _ = atLaunch m c main_arg10 := rfl

theorem launch_arg11 : W3 m ρ c (Proc.devRef .tc main_arg11) = atLaunch m c main_arg11 :=
  calc W3 m ρ c (Proc.devRef .tc main_arg11)
    _ = W2 m ρ c (Proc.devRef .tc main_arg11) := StableHlo.after_of_forall_not_mem (b := Proc.devRef .tc main_arg11) _ _ (List.forall_iff_forall_mem.mp (by not_written))
    _ = W1 m ρ c (Proc.devRef .tc main_arg11) := StableHlo.after_of_forall_not_mem (b := Proc.devRef .tc main_arg11) _ _ (List.forall_iff_forall_mem.mp (by not_written))
    _ = W0 m ρ c (Proc.devRef .tc main_arg11) := StableHlo.after_of_forall_not_mem (b := Proc.devRef .tc main_arg11) _ _ (List.forall_iff_forall_mem.mp (by not_written))
    _ = atLaunch m c main_arg11 := rfl

theorem launch_arg12 : W3 m ρ c (Proc.devRef .tc main_arg12) = atLaunch m c main_arg12 :=
  calc W3 m ρ c (Proc.devRef .tc main_arg12)
    _ = W2 m ρ c (Proc.devRef .tc main_arg12) := StableHlo.after_of_forall_not_mem (b := Proc.devRef .tc main_arg12) _ _ (List.forall_iff_forall_mem.mp (by not_written))
    _ = W1 m ρ c (Proc.devRef .tc main_arg12) := StableHlo.after_of_forall_not_mem (b := Proc.devRef .tc main_arg12) _ _ (List.forall_iff_forall_mem.mp (by not_written))
    _ = W0 m ρ c (Proc.devRef .tc main_arg12) := StableHlo.after_of_forall_not_mem (b := Proc.devRef .tc main_arg12) _ _ (List.forall_iff_forall_mem.mp (by not_written))
    _ = atLaunch m c main_arg12 := rfl

theorem launch_arg13 : W3 m ρ c (Proc.devRef .tc main_arg13) = atLaunch m c main_arg13 :=
  calc W3 m ρ c (Proc.devRef .tc main_arg13)
    _ = W2 m ρ c (Proc.devRef .tc main_arg13) := StableHlo.after_of_forall_not_mem (b := Proc.devRef .tc main_arg13) _ _ (List.forall_iff_forall_mem.mp (by not_written))
    _ = W1 m ρ c (Proc.devRef .tc main_arg13) := StableHlo.after_of_forall_not_mem (b := Proc.devRef .tc main_arg13) _ _ (List.forall_iff_forall_mem.mp (by not_written))
    _ = W0 m ρ c (Proc.devRef .tc main_arg13) := StableHlo.after_of_forall_not_mem (b := Proc.devRef .tc main_arg13) _ _ (List.forall_iff_forall_mem.mp (by not_written))
    _ = atLaunch m c main_arg13 := rfl

theorem launch_arg14 : W3 m ρ c (Proc.devRef .tc main_arg14) = atLaunch m c main_arg14 :=
  calc W3 m ρ c (Proc.devRef .tc main_arg14)
    _ = W2 m ρ c (Proc.devRef .tc main_arg14) := StableHlo.after_of_forall_not_mem (b := Proc.devRef .tc main_arg14) _ _ (List.forall_iff_forall_mem.mp (by not_written))
    _ = W1 m ρ c (Proc.devRef .tc main_arg14) := StableHlo.after_of_forall_not_mem (b := Proc.devRef .tc main_arg14) _ _ (List.forall_iff_forall_mem.mp (by not_written))
    _ = W0 m ρ c (Proc.devRef .tc main_arg14) := StableHlo.after_of_forall_not_mem (b := Proc.devRef .tc main_arg14) _ _ (List.forall_iff_forall_mem.mp (by not_written))
    _ = atLaunch m c main_arg14 := rfl

theorem launch_arg15 : W3 m ρ c (Proc.devRef .tc main_arg15) = atLaunch m c main_arg15 :=
  calc W3 m ρ c (Proc.devRef .tc main_arg15)
    _ = W2 m ρ c (Proc.devRef .tc main_arg15) := StableHlo.after_of_forall_not_mem (b := Proc.devRef .tc main_arg15) _ _ (List.forall_iff_forall_mem.mp (by not_written))
    _ = W1 m ρ c (Proc.devRef .tc main_arg15) := StableHlo.after_of_forall_not_mem (b := Proc.devRef .tc main_arg15) _ _ (List.forall_iff_forall_mem.mp (by not_written))
    _ = W0 m ρ c (Proc.devRef .tc main_arg15) := StableHlo.after_of_forall_not_mem (b := Proc.devRef .tc main_arg15) _ _ (List.forall_iff_forall_mem.mp (by not_written))
    _ = atLaunch m c main_arg15 := rfl

theorem launch_arg16 : W3 m ρ c (Proc.devRef .tc main_arg16) = atLaunch m c main_arg16 :=
  calc W3 m ρ c (Proc.devRef .tc main_arg16)
    _ = W2 m ρ c (Proc.devRef .tc main_arg16) := StableHlo.after_of_forall_not_mem (b := Proc.devRef .tc main_arg16) _ _ (List.forall_iff_forall_mem.mp (by not_written))
    _ = W1 m ρ c (Proc.devRef .tc main_arg16) := StableHlo.after_of_forall_not_mem (b := Proc.devRef .tc main_arg16) _ _ (List.forall_iff_forall_mem.mp (by not_written))
    _ = W0 m ρ c (Proc.devRef .tc main_arg16) := StableHlo.after_of_forall_not_mem (b := Proc.devRef .tc main_arg16) _ _ (List.forall_iff_forall_mem.mp (by not_written))
    _ = atLaunch m c main_arg16 := rfl

theorem launch_arg17 : W3 m ρ c (Proc.devRef .tc main_arg17) = atLaunch m c main_arg17 :=
  calc W3 m ρ c (Proc.devRef .tc main_arg17)
    _ = W2 m ρ c (Proc.devRef .tc main_arg17) := StableHlo.after_of_forall_not_mem (b := Proc.devRef .tc main_arg17) _ _ (List.forall_iff_forall_mem.mp (by not_written))
    _ = W1 m ρ c (Proc.devRef .tc main_arg17) := StableHlo.after_of_forall_not_mem (b := Proc.devRef .tc main_arg17) _ _ (List.forall_iff_forall_mem.mp (by not_written))
    _ = W0 m ρ c (Proc.devRef .tc main_arg17) := StableHlo.after_of_forall_not_mem (b := Proc.devRef .tc main_arg17) _ _ (List.forall_iff_forall_mem.mp (by not_written))
    _ = atLaunch m c main_arg17 := rfl

theorem launch_arg18 : W3 m ρ c (Proc.devRef .tc main_arg18) = atLaunch m c main_arg18 :=
  calc W3 m ρ c (Proc.devRef .tc main_arg18)
    _ = W2 m ρ c (Proc.devRef .tc main_arg18) := StableHlo.after_of_forall_not_mem (b := Proc.devRef .tc main_arg18) _ _ (List.forall_iff_forall_mem.mp (by not_written))
    _ = W1 m ρ c (Proc.devRef .tc main_arg18) := StableHlo.after_of_forall_not_mem (b := Proc.devRef .tc main_arg18) _ _ (List.forall_iff_forall_mem.mp (by not_written))
    _ = W0 m ρ c (Proc.devRef .tc main_arg18) := StableHlo.after_of_forall_not_mem (b := Proc.devRef .tc main_arg18) _ _ (List.forall_iff_forall_mem.mp (by not_written))
    _ = atLaunch m c main_arg18 := rfl

theorem launch_arg19 : W3 m ρ c (Proc.devRef .tc main_arg19) = atLaunch m c main_arg19 :=
  calc W3 m ρ c (Proc.devRef .tc main_arg19)
    _ = W2 m ρ c (Proc.devRef .tc main_arg19) := StableHlo.after_of_forall_not_mem (b := Proc.devRef .tc main_arg19) _ _ (List.forall_iff_forall_mem.mp (by not_written))
    _ = W1 m ρ c (Proc.devRef .tc main_arg19) := StableHlo.after_of_forall_not_mem (b := Proc.devRef .tc main_arg19) _ _ (List.forall_iff_forall_mem.mp (by not_written))
    _ = W0 m ρ c (Proc.devRef .tc main_arg19) := StableHlo.after_of_forall_not_mem (b := Proc.devRef .tc main_arg19) _ _ (List.forall_iff_forall_mem.mp (by not_written))
    _ = atLaunch m c main_arg19 := rfl

theorem launch_arg20 : W3 m ρ c (Proc.devRef .tc main_arg20) = atLaunch m c main_arg20 :=
  calc W3 m ρ c (Proc.devRef .tc main_arg20)
    _ = W2 m ρ c (Proc.devRef .tc main_arg20) := StableHlo.after_of_forall_not_mem (b := Proc.devRef .tc main_arg20) _ _ (List.forall_iff_forall_mem.mp (by not_written))
    _ = W1 m ρ c (Proc.devRef .tc main_arg20) := StableHlo.after_of_forall_not_mem (b := Proc.devRef .tc main_arg20) _ _ (List.forall_iff_forall_mem.mp (by not_written))
    _ = W0 m ρ c (Proc.devRef .tc main_arg20) := StableHlo.after_of_forall_not_mem (b := Proc.devRef .tc main_arg20) _ _ (List.forall_iff_forall_mem.mp (by not_written))
    _ = atLaunch m c main_arg20 := rfl

theorem launch_arg21 : W3 m ρ c (Proc.devRef .tc main_arg21) = atLaunch m c main_arg21 :=
  calc W3 m ρ c (Proc.devRef .tc main_arg21)
    _ = W2 m ρ c (Proc.devRef .tc main_arg21) := StableHlo.after_of_forall_not_mem (b := Proc.devRef .tc main_arg21) _ _ (List.forall_iff_forall_mem.mp (by not_written))
    _ = W1 m ρ c (Proc.devRef .tc main_arg21) := StableHlo.after_of_forall_not_mem (b := Proc.devRef .tc main_arg21) _ _ (List.forall_iff_forall_mem.mp (by not_written))
    _ = W0 m ρ c (Proc.devRef .tc main_arg21) := StableHlo.after_of_forall_not_mem (b := Proc.devRef .tc main_arg21) _ _ (List.forall_iff_forall_mem.mp (by not_written))
    _ = atLaunch m c main_arg21 := rfl

theorem launch_arg22 : W3 m ρ c (Proc.devRef .tc main_arg22) = atLaunch m c main_arg22 :=
  calc W3 m ρ c (Proc.devRef .tc main_arg22)
    _ = W2 m ρ c (Proc.devRef .tc main_arg22) := StableHlo.after_of_forall_not_mem (b := Proc.devRef .tc main_arg22) _ _ (List.forall_iff_forall_mem.mp (by not_written))
    _ = W1 m ρ c (Proc.devRef .tc main_arg22) := StableHlo.after_of_forall_not_mem (b := Proc.devRef .tc main_arg22) _ _ (List.forall_iff_forall_mem.mp (by not_written))
    _ = W0 m ρ c (Proc.devRef .tc main_arg22) := StableHlo.after_of_forall_not_mem (b := Proc.devRef .tc main_arg22) _ _ (List.forall_iff_forall_mem.mp (by not_written))
    _ = atLaunch m c main_arg22 := rfl

theorem launch_arg23 : W3 m ρ c (Proc.devRef .tc main_arg23) = atLaunch m c main_arg23 :=
  calc W3 m ρ c (Proc.devRef .tc main_arg23)
    _ = W2 m ρ c (Proc.devRef .tc main_arg23) := StableHlo.after_of_forall_not_mem (b := Proc.devRef .tc main_arg23) _ _ (List.forall_iff_forall_mem.mp (by not_written))
    _ = W1 m ρ c (Proc.devRef .tc main_arg23) := StableHlo.after_of_forall_not_mem (b := Proc.devRef .tc main_arg23) _ _ (List.forall_iff_forall_mem.mp (by not_written))
    _ = W0 m ρ c (Proc.devRef .tc main_arg23) := StableHlo.after_of_forall_not_mem (b := Proc.devRef .tc main_arg23) _ _ (List.forall_iff_forall_mem.mp (by not_written))
    _ = atLaunch m c main_arg23 := rfl

theorem keep4_arg5 : W4 m ρ c (Proc.devRef .tc main_arg5) = atLaunch m c main_arg5 :=
  calc W4 m ρ c (Proc.devRef .tc main_arg5)
    _ = W3 m ρ c (Proc.devRef .tc main_arg5) := W4_of_ne m ρ c main_arg5 (by decide)
    _ = atLaunch m c main_arg5 := launch_arg5 m ρ c

theorem keep4_arg6 : W4 m ρ c (Proc.devRef .tc main_arg6) = atLaunch m c main_arg6 :=
  calc W4 m ρ c (Proc.devRef .tc main_arg6)
    _ = W3 m ρ c (Proc.devRef .tc main_arg6) := W4_of_ne m ρ c main_arg6 (by decide)
    _ = atLaunch m c main_arg6 := launch_arg6 m ρ c

theorem keep4_arg7 : W4 m ρ c (Proc.devRef .tc main_arg7) = atLaunch m c main_arg7 :=
  calc W4 m ρ c (Proc.devRef .tc main_arg7)
    _ = W3 m ρ c (Proc.devRef .tc main_arg7) := W4_of_ne m ρ c main_arg7 (by decide)
    _ = atLaunch m c main_arg7 := launch_arg7 m ρ c

theorem keep4_arg8 : W4 m ρ c (Proc.devRef .tc main_arg8) = atLaunch m c main_arg8 :=
  calc W4 m ρ c (Proc.devRef .tc main_arg8)
    _ = W3 m ρ c (Proc.devRef .tc main_arg8) := W4_of_ne m ρ c main_arg8 (by decide)
    _ = atLaunch m c main_arg8 := launch_arg8 m ρ c

theorem keep4_arg9 : W4 m ρ c (Proc.devRef .tc main_arg9) = atLaunch m c main_arg9 :=
  calc W4 m ρ c (Proc.devRef .tc main_arg9)
    _ = W3 m ρ c (Proc.devRef .tc main_arg9) := W4_of_ne m ρ c main_arg9 (by decide)
    _ = atLaunch m c main_arg9 := launch_arg9 m ρ c

theorem keep6_arg10 : W6 m ρ c (Proc.devRef .tc main_arg10) = atLaunch m c main_arg10 :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by not_written))
    _ = W3 m ρ c (Proc.devRef .tc main_arg10) := W4_of_ne m ρ c main_arg10 (by decide)
    _ = atLaunch m c main_arg10 := launch_arg10 m ρ c

theorem keep7_arg11 : W7 m ρ c (Proc.devRef .tc main_arg11) = atLaunch m c main_arg11 :=
  calc W7 m ρ c (Proc.devRef .tc main_arg11)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by not_written))
    _ = W3 m ρ c (Proc.devRef .tc main_arg11) := W4_of_ne m ρ c main_arg11 (by decide)
    _ = atLaunch m c main_arg11 := launch_arg11 m ρ c

theorem keep7_arg12 : W7 m ρ c (Proc.devRef .tc main_arg12) = atLaunch m c main_arg12 :=
  calc W7 m ρ c (Proc.devRef .tc main_arg12)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by not_written))
    _ = W3 m ρ c (Proc.devRef .tc main_arg12) := W4_of_ne m ρ c main_arg12 (by decide)
    _ = atLaunch m c main_arg12 := launch_arg12 m ρ c

theorem keep7_arg13 : W7 m ρ c (Proc.devRef .tc main_arg13) = atLaunch m c main_arg13 :=
  calc W7 m ρ c (Proc.devRef .tc main_arg13)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by not_written))
    _ = W3 m ρ c (Proc.devRef .tc main_arg13) := W4_of_ne m ρ c main_arg13 (by decide)
    _ = atLaunch m c main_arg13 := launch_arg13 m ρ c

theorem keep7_arg14 : W7 m ρ c (Proc.devRef .tc main_arg14) = atLaunch m c main_arg14 :=
  calc W7 m ρ c (Proc.devRef .tc main_arg14)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by not_written))
    _ = W3 m ρ c (Proc.devRef .tc main_arg14) := W4_of_ne m ρ c main_arg14 (by decide)
    _ = atLaunch m c main_arg14 := launch_arg14 m ρ c

theorem keep7_arg15 : W7 m ρ c (Proc.devRef .tc main_arg15) = atLaunch m c main_arg15 :=
  calc W7 m ρ c (Proc.devRef .tc main_arg15)
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by not_written))
    _ = W3 m ρ c (Proc.devRef .tc main_arg15) := W4_of_ne m ρ c main_arg15 (by decide)
    _ = atLaunch m c main_arg15 := launch_arg15 m ρ c

theorem keep9_arg16 : W9 m ρ c (Proc.devRef .tc main_arg16) = atLaunch m c main_arg16 :=
  calc W9 m ρ c (Proc.devRef .tc main_arg16)
    _ = W8 m ρ c (Proc.devRef .tc main_arg16) := W9_of_ne m ρ c main_arg16 (by decide)
    _ = W7 m ρ c (Proc.devRef .tc main_arg16) := StableHlo.after_of_forall_not_mem (b := Proc.devRef .tc main_arg16) _ _ (List.forall_iff_forall_mem.mp (by not_written))
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by not_written))
    _ = W3 m ρ c (Proc.devRef .tc main_arg16) := W4_of_ne m ρ c main_arg16 (by decide)
    _ = atLaunch m c main_arg16 := launch_arg16 m ρ c

theorem keep10_arg17 : W10 m ρ c (Proc.devRef .tc main_arg17) = atLaunch m c main_arg17 :=
  calc W10 m ρ c (Proc.devRef .tc main_arg17)
    _ = W9 m ρ c (Proc.devRef .tc main_arg17) := W10_of_ne m ρ c main_arg17 (by decide)
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (List.forall_iff_forall_mem.mp (by not_written))
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by not_written))
    _ = W3 m ρ c (Proc.devRef .tc main_arg17) := W4_of_ne m ρ c main_arg17 (by decide)
    _ = atLaunch m c main_arg17 := launch_arg17 m ρ c

theorem keep10_arg18 : W10 m ρ c (Proc.devRef .tc main_arg18) = atLaunch m c main_arg18 :=
  calc W10 m ρ c (Proc.devRef .tc main_arg18)
    _ = W9 m ρ c (Proc.devRef .tc main_arg18) := W10_of_ne m ρ c main_arg18 (by decide)
    _ = W8 m ρ c (Proc.devRef .tc main_arg18) := W9_of_ne m ρ c main_arg18 (by decide)
    _ = W7 m ρ c (Proc.devRef .tc main_arg18) := StableHlo.after_of_forall_not_mem (b := Proc.devRef .tc main_arg18) _ _ (List.forall_iff_forall_mem.mp (by not_written))
    _ = W6 m ρ c (Proc.devRef .tc main_arg18) := W7_of_ne m ρ c main_arg18 (by decide)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by not_written))
    _ = W3 m ρ c (Proc.devRef .tc main_arg18) := W4_of_ne m ρ c main_arg18 (by decide)
    _ = atLaunch m c main_arg18 := launch_arg18 m ρ c

theorem keep10_arg19 : W10 m ρ c (Proc.devRef .tc main_arg19) = atLaunch m c main_arg19 :=
  calc W10 m ρ c (Proc.devRef .tc main_arg19)
    _ = W9 m ρ c (Proc.devRef .tc main_arg19) := W10_of_ne m ρ c main_arg19 (by decide)
    _ = W8 m ρ c (Proc.devRef .tc main_arg19) := W9_of_ne m ρ c main_arg19 (by decide)
    _ = W7 m ρ c (Proc.devRef .tc main_arg19) := StableHlo.after_of_forall_not_mem (b := Proc.devRef .tc main_arg19) _ _ (List.forall_iff_forall_mem.mp (by not_written))
    _ = W6 m ρ c (Proc.devRef .tc main_arg19) := W7_of_ne m ρ c main_arg19 (by decide)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by not_written))
    _ = W3 m ρ c (Proc.devRef .tc main_arg19) := W4_of_ne m ρ c main_arg19 (by decide)
    _ = atLaunch m c main_arg19 := launch_arg19 m ρ c

theorem keep10_arg20 : W10 m ρ c (Proc.devRef .tc main_arg20) = atLaunch m c main_arg20 :=
  calc W10 m ρ c (Proc.devRef .tc main_arg20)
    _ = W9 m ρ c (Proc.devRef .tc main_arg20) := W10_of_ne m ρ c main_arg20 (by decide)
    _ = W8 m ρ c (Proc.devRef .tc main_arg20) := W9_of_ne m ρ c main_arg20 (by decide)
    _ = W7 m ρ c (Proc.devRef .tc main_arg20) := StableHlo.after_of_forall_not_mem (b := Proc.devRef .tc main_arg20) _ _ (List.forall_iff_forall_mem.mp (by not_written))
    _ = W6 m ρ c (Proc.devRef .tc main_arg20) := W7_of_ne m ρ c main_arg20 (by decide)
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by not_written))
    _ = W3 m ρ c (Proc.devRef .tc main_arg20) := W4_of_ne m ρ c main_arg20 (by decide)
    _ = atLaunch m c main_arg20 := launch_arg20 m ρ c

theorem keep10_arg21 : W10 m ρ c (Proc.devRef .tc main_arg21) = atLaunch m c main_arg21 :=
  calc W10 m ρ c (Proc.devRef .tc main_arg21)
    _ = W9 m ρ c (Proc.devRef .tc main_arg21) := W10_of_ne m ρ c main_arg21 (by decide)
    _ = W8 m ρ c (Proc.devRef .tc main_arg21) := W9_of_ne m ρ c main_arg21 (by decide)
    _ = W7 m ρ c (Proc.devRef .tc main_arg21) := StableHlo.after_of_forall_not_mem (b := Proc.devRef .tc main_arg21) _ _ (List.forall_iff_forall_mem.mp (by not_written))
    _ = W6 m ρ c (Proc.devRef .tc main_arg21) := W7_of_ne m ρ c main_arg21 (by decide)
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by not_written))
    _ = W3 m ρ c (Proc.devRef .tc main_arg21) := W4_of_ne m ρ c main_arg21 (by decide)
    _ = atLaunch m c main_arg21 := launch_arg21 m ρ c

theorem keep12_arg3 : W12 m ρ c (Proc.devRef .tc main_arg3) = atLaunch m c main_arg3 :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by not_written))
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by not_written))
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by not_written))
    _ = W3 m ρ c (Proc.devRef .tc main_arg3) := W4_of_ne m ρ c main_arg3 (by decide)
    _ = atLaunch m c main_arg3 := launch_arg3 m ρ c

theorem keep12_arg23 : W12 m ρ c (Proc.devRef .tc main_arg23) = atLaunch m c main_arg23 :=
  calc W12 m ρ c (Proc.devRef .tc main_arg23)
    _ = W11 m ρ c (Proc.devRef .tc main_arg23) := W12_of_ne m ρ c main_arg23 (by decide)
    _ = W10 m ρ c (Proc.devRef .tc main_arg23) := StableHlo.after_of_forall_not_mem (b := Proc.devRef .tc main_arg23) _ _ (List.forall_iff_forall_mem.mp (by not_written))
    _ = W9 m ρ c (Proc.devRef .tc main_arg23) := W10_of_ne m ρ c main_arg23 (by decide)
    _ = W8 m ρ c (Proc.devRef .tc main_arg23) := W9_of_ne m ρ c main_arg23 (by decide)
    _ = W7 m ρ c (Proc.devRef .tc main_arg23) := StableHlo.after_of_forall_not_mem (b := Proc.devRef .tc main_arg23) _ _ (List.forall_iff_forall_mem.mp (by not_written))
    _ = W6 m ρ c (Proc.devRef .tc main_arg23) := W7_of_ne m ρ c main_arg23 (by decide)
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by not_written))
    _ = W3 m ρ c (Proc.devRef .tc main_arg23) := W4_of_ne m ρ c main_arg23 (by decide)
    _ = atLaunch m c main_arg23 := launch_arg23 m ρ c

theorem keep13_arg22 : W13 m ρ c (Proc.devRef .tc main_arg22) = atLaunch m c main_arg22 :=
  calc W13 m ρ c (Proc.devRef .tc main_arg22)
    _ = W12 m ρ c (Proc.devRef .tc main_arg22) := StableHlo.after_of_forall_not_mem (b := Proc.devRef .tc main_arg22) _ _ (List.forall_iff_forall_mem.mp (by not_written))
    _ = W11 m ρ c (Proc.devRef .tc main_arg22) := W12_of_ne m ρ c main_arg22 (by decide)
    _ = W10 m ρ c (Proc.devRef .tc main_arg22) := StableHlo.after_of_forall_not_mem (b := Proc.devRef .tc main_arg22) _ _ (List.forall_iff_forall_mem.mp (by not_written))
    _ = W9 m ρ c (Proc.devRef .tc main_arg22) := W10_of_ne m ρ c main_arg22 (by decide)
    _ = W8 m ρ c (Proc.devRef .tc main_arg22) := W9_of_ne m ρ c main_arg22 (by decide)
    _ = W7 m ρ c (Proc.devRef .tc main_arg22) := StableHlo.after_of_forall_not_mem (b := Proc.devRef .tc main_arg22) _ _ (List.forall_iff_forall_mem.mp (by not_written))
    _ = W6 m ρ c (Proc.devRef .tc main_arg22) := W7_of_ne m ρ c main_arg22 (by decide)
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by not_written))
    _ = W3 m ρ c (Proc.devRef .tc main_arg22) := W4_of_ne m ρ c main_arg22 (by decide)
    _ = atLaunch m c main_arg22 := launch_arg22 m ρ c

/-! ## Before the first region: edges and their weights -/

/-- The source node of every edge, self-loops appended. -/
theorem sources_at_entry : W3 m ρ c (Proc.devRef .tc main_v3) = val_main_v3 (F := Ideal) (atLaunch m c main_arg1) := by
  show StableHlo.after hostOps0_2 (StableHlo.after hostOps0_1 (StableHlo.after hostOps0 (W0 m ρ c))) (Proc.devRef .tc main_v3) = _
  dsimp only [hostOps0, hostOps0_1, hostOps0_2]
  after_results_simp
  rfl
/-- The target node of every edge, self-loops appended. -/
theorem targets_at_entry : W3 m ρ c (Proc.devRef .tc main_v7) = val_main_v7 (F := Ideal) (atLaunch m c main_arg1) := by
  show StableHlo.after hostOps0_2 (StableHlo.after hostOps0_1 (StableHlo.after hostOps0 (W0 m ρ c))) (Proc.devRef .tc main_v7) = _
  dsimp only [hostOps0, hostOps0_1, hostOps0_2]
  after_results_simp
  rfl
/-- Before the last opening stretch: the source nodes. -/
theorem sources_mid : W2 m ρ c (Proc.devRef .tc main_v3) = val_main_v3 (F := Ideal) (atLaunch m c main_arg1) := by
  show StableHlo.after hostOps0_1 (StableHlo.after hostOps0 (W0 m ρ c)) (Proc.devRef .tc main_v3) = _
  dsimp only [hostOps0, hostOps0_1]
  after_results_simp
  rfl
/-- The target nodes. -/
theorem targets_mid : W2 m ρ c (Proc.devRef .tc main_v7) = val_main_v7 (F := Ideal) (atLaunch m c main_arg1) := by
  show StableHlo.after hostOps0_1 (StableHlo.after hostOps0 (W0 m ρ c)) (Proc.devRef .tc main_v7) = _
  dsimp only [hostOps0, hostOps0_1]
  after_results_simp
  rfl
/-- The edge weights, one per self-loop appended. -/
theorem edge_weights_mid : W2 m ρ c (Proc.devRef .tc main_v9) = Cert.ReferenceIdeal.Read.val_main_v9 (F := Ideal) (atLaunch m c main_arg2) := by
  show StableHlo.after hostOps0_1 (StableHlo.after hostOps0 (W0 m ρ c)) (Proc.devRef .tc main_v9) = _
  dsimp only [hostOps0, hostOps0_1]
  after_results_simp
  rfl
/-- Running a list of host operations in two parts. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l1 ih => rw [List.cons_append, StableHlo.after_cons, StableHlo.after_cons, ih]

/-- A list cut after its fifteenth element: the front part … -/
def firstFifteen {α : Type} : List α → List α
  | a0 :: a1 :: a2 :: a3 :: a4 :: a5 :: a6 :: a7 :: a8 :: a9 :: a10 :: a11 :: a12 :: a13 :: a14 :: _ => [a0, a1, a2, a3, a4, a5, a6, a7, a8, a9, a10, a11, a12, a13, a14]
  | l => l
/-- … and the rest. -/
def afterFifteen {α : Type} : List α → List α
  | _ :: _ :: _ :: _ :: _ :: _ :: _ :: _ :: _ :: _ :: _ :: _ :: _ :: _ :: _ :: rest => rest
  | _ => []

/-- The weighted degree of every node (the edge weights summed at their target nodes), as it stands after the first
    fifteen host operations. -/
theorem degree_early : StableHlo.after (firstFifteen (hostOps0 : List (HloOp τ sig (Elt Ideal)))) (W0 m ρ c) (Proc.devRef .tc main_v12)
    = Cert.ReferenceIdeal.Read.val_main_v12 (F := Ideal) (atLaunch m c main_arg1) (atLaunch m c main_arg2) := by
  dsimp only [hostOps0, firstFifteen]
  after_results_simp
  rfl

/-- The selection step is written through re-typings of each buffer's contents at its own type; they change nothing. -/
theorem select_retyped (a : (⟨S100000, .i1⟩ : BufTy).Contents (Elt Ideal)) (b : (⟨S100000, .f32⟩ : BufTy).Contents (Elt Ideal))
    (k : (⟨S_, .f32⟩ : BufTy).Contents (Elt Ideal)) :
    (StableHlo.TRef.of main_v18 : StableHlo.TRef sig ⟨S100000, .f32⟩).toBuf
      (select ((StableHlo.TRef.of main_v14 : StableHlo.TRef sig ⟨S100000, .i1⟩).ofBuf a) ((StableHlo.TRef.of main_v17 : StableHlo.TRef sig ⟨S100000, .f32⟩).ofBuf b)
        ((StableHlo.TRef.of main_call0_v1 : StableHlo.TRef sig ⟨S100000, .f32⟩).ofBuf ((StableHlo.TRef.of main_call0_v1 : StableHlo.TRef sig ⟨S100000, .f32⟩).toBuf
          (broadcastInDim S100000 ![] bcast_S_S100000
            ((StableHlo.TRef.of main_call0_v0 : StableHlo.TRef sig ⟨S_, .f32⟩).ofBuf ((StableHlo.TRef.of main_call0_v0 : StableHlo.TRef sig ⟨S_, .f32⟩).toBuf
              (id ((StableHlo.TRef.of main_cst_3 : StableHlo.TRef sig ⟨S_, .f32⟩).ofBuf k))))))))
    = (select a b (broadcastInDim S100000 ![] bcast_S_S100000 (id k)) : (⟨S100000, .f32⟩ : BufTy).Contents (Elt Ideal)) := rfl

/-- From the degree to its inverse square root, zero where the degree is not positive: the rest of the first stretch
    and the selection, from any contents that hold the degree. -/
theorem degree_to_inv_sqrt (u : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h : u (Proc.devRef .tc main_v12) = Cert.ReferenceIdeal.Read.val_main_v12 (F := Ideal) x1 x2) :
    StableHlo.after hostOps0_1 (StableHlo.after (afterFifteen (hostOps0 : List (HloOp τ sig (Elt Ideal)))) u) (Proc.devRef .tc main_v18)
      = Cert.ReferenceIdeal.Read.val_main_v18 (F := Ideal) x1 x2 := by
  dsimp only [hostOps0, hostOps0_1, afterFifteen]
  after_results_simp
  rw [h]
  refine (select_retyped _ _ _).trans ?_
  rfl

/-- The inverse square root of every node's weighted degree (zero where the degree is not positive). -/
theorem inv_sqrt_degree_mid : W2 m ρ c (Proc.devRef .tc main_v18) = Cert.ReferenceIdeal.Read.val_main_v18 (F := Ideal) (atLaunch m c main_arg1) (atLaunch m c main_arg2) := by
  show StableHlo.after hostOps0_1 (StableHlo.after hostOps0 (W0 m ρ c)) (Proc.devRef .tc main_v18) = _
  rw [show StableHlo.after (hostOps0 : List (HloOp τ sig (Elt Ideal))) (W0 m ρ c)
      = StableHlo.after (afterFifteen (hostOps0 : List (HloOp τ sig (Elt Ideal)))) (StableHlo.after (firstFifteen (hostOps0 : List (HloOp τ sig (Elt Ideal)))) (W0 m ρ c))
    from by rw [← after_append]; rfl]
  exact degree_to_inv_sqrt _ _ _ (degree_early m ρ c)

/-- The last opening stretch, from any contents that hold the four stages it reads: every edge's weight times the
    inverse square roots of its two endpoints' degrees. -/
theorem edge_norm_of (v : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h18 : v (Proc.devRef .tc main_v18) = Cert.ReferenceIdeal.Read.val_main_v18 (F := Ideal) x1 x2)
    (h3 : v (Proc.devRef .tc main_v3) = val_main_v3 (F := Ideal) x1) (h7 : v (Proc.devRef .tc main_v7) = val_main_v7 (F := Ideal) x1)
    (h9 : v (Proc.devRef .tc main_v9) = Cert.ReferenceIdeal.Read.val_main_v9 (F := Ideal) x2) :
    StableHlo.after hostOps0_2 v (Proc.devRef .tc main_v34) = val_main_v34 (F := Ideal) x1 x2 := by
  dsimp only [hostOps0_2]
  after_results_simp
  rw [h18, h3, h7, h9]
  rfl

/-- The normalisation weight of every edge, at the first region's entry. -/
theorem weights_at_entry : W3 m ρ c (Proc.devRef .tc main_v34) = val_main_v34 (F := Ideal) (atLaunch m c main_arg1) (atLaunch m c main_arg2) :=
  edge_norm_of (W2 m ρ c) _ _ (inv_sqrt_degree_mid m ρ c) (sources_mid m ρ c) (targets_mid m ρ c) (edge_weights_mid m ρ c)

theorem sources_at4 : W4 m ρ c (Proc.devRef .tc main_v3) = val_main_v3 (F := Ideal) (atLaunch m c main_arg1) :=
  calc W4 m ρ c (Proc.devRef .tc main_v3)
    _ = W3 m ρ c (Proc.devRef .tc main_v3) := W4_of_ne m ρ c main_v3 (by decide)
    _ = val_main_v3 (F := Ideal) (atLaunch m c main_arg1) := sources_at_entry m ρ c

theorem targets_at4 : W4 m ρ c (Proc.devRef .tc main_v7) = val_main_v7 (F := Ideal) (atLaunch m c main_arg1) :=
  calc W4 m ρ c (Proc.devRef .tc main_v7)
    _ = W3 m ρ c (Proc.devRef .tc main_v7) := W4_of_ne m ρ c main_v7 (by decide)
    _ = val_main_v7 (F := Ideal) (atLaunch m c main_arg1) := targets_at_entry m ρ c

theorem weights_at4 : W4 m ρ c (Proc.devRef .tc main_v34) = val_main_v34 (F := Ideal) (atLaunch m c main_arg1) (atLaunch m c main_arg2) :=
  calc W4 m ρ c (Proc.devRef .tc main_v34)
    _ = W3 m ρ c (Proc.devRef .tc main_v34) := W4_of_ne m ρ c main_v34 (by decide)
    _ = val_main_v34 (F := Ideal) (atLaunch m c main_arg1) (atLaunch m c main_arg2) := weights_at_entry m ρ c

theorem sources_at7 : W7 m ρ c (Proc.devRef .tc main_v3) = val_main_v3 (F := Ideal) (atLaunch m c main_arg1) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by not_written))
    _ = W3 m ρ c (Proc.devRef .tc main_v3) := W4_of_ne m ρ c main_v3 (by decide)
    _ = val_main_v3 (F := Ideal) (atLaunch m c main_arg1) := sources_at_entry m ρ c

theorem targets_at7 : W7 m ρ c (Proc.devRef .tc main_v7) = val_main_v7 (F := Ideal) (atLaunch m c main_arg1) :=
  calc W7 m ρ c (Proc.devRef .tc main_v7)
    _ = W6 m ρ c (Proc.devRef .tc main_v7) := W7_of_ne m ρ c main_v7 (by decide)
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by not_written))
    _ = W3 m ρ c (Proc.devRef .tc main_v7) := W4_of_ne m ρ c main_v7 (by decide)
    _ = val_main_v7 (F := Ideal) (atLaunch m c main_arg1) := targets_at_entry m ρ c

theorem weights_at7 : W7 m ρ c (Proc.devRef .tc main_v34) = val_main_v34 (F := Ideal) (atLaunch m c main_arg1) (atLaunch m c main_arg2) :=
  calc W7 m ρ c (Proc.devRef .tc main_v34)
    _ = W6 m ρ c (Proc.devRef .tc main_v34) := W7_of_ne m ρ c main_v34 (by decide)
    _ = W5 m ρ c (Proc.devRef .tc main_v34) := W6_of_ne m ρ c main_v34 (by decide)
    _ = W4 m ρ c (Proc.devRef .tc main_v34) := StableHlo.after_of_forall_not_mem (b := Proc.devRef .tc main_v34) _ _ (List.forall_iff_forall_mem.mp (by not_written))
    _ = W3 m ρ c (Proc.devRef .tc main_v34) := W4_of_ne m ρ c main_v34 (by decide)
    _ = val_main_v34 (F := Ideal) (atLaunch m c main_arg1) (atLaunch m c main_arg2) := weights_at_entry m ρ c

theorem sources_at10 : W10 m ρ c (Proc.devRef .tc main_v3) = val_main_v3 (F := Ideal) (atLaunch m c main_arg1) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by not_written))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by not_written))
    _ = W3 m ρ c (Proc.devRef .tc main_v3) := W4_of_ne m ρ c main_v3 (by decide)
    _ = val_main_v3 (F := Ideal) (atLaunch m c main_arg1) := sources_at_entry m ρ c

theorem targets_at10 : W10 m ρ c (Proc.devRef .tc main_v7) = val_main_v7 (F := Ideal) (atLaunch m c main_arg1) :=
  calc W10 m ρ c (Proc.devRef .tc main_v7)
    _ = W9 m ρ c (Proc.devRef .tc main_v7) := W10_of_ne m ρ c main_v7 (by decide)
    _ = W8 m ρ c (Proc.devRef .tc main_v7) := W9_of_ne m ρ c main_v7 (by decide)
    _ = W7 m ρ c (Proc.devRef .tc main_v7) := StableHlo.after_of_forall_not_mem (b := Proc.devRef .tc main_v7) _ _ (List.forall_iff_forall_mem.mp (by not_written))
    _ = W6 m ρ c (Proc.devRef .tc main_v7) := W7_of_ne m ρ c main_v7 (by decide)
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by not_written))
    _ = W3 m ρ c (Proc.devRef .tc main_v7) := W4_of_ne m ρ c main_v7 (by decide)
    _ = val_main_v7 (F := Ideal) (atLaunch m c main_arg1) := targets_at_entry m ρ c

theorem weights_at10 : W10 m ρ c (Proc.devRef .tc main_v34) = val_main_v34 (F := Ideal) (atLaunch m c main_arg1) (atLaunch m c main_arg2) :=
  calc W10 m ρ c (Proc.devRef .tc main_v34)
    _ = W9 m ρ c (Proc.devRef .tc main_v34) := W10_of_ne m ρ c main_v34 (by decide)
    _ = W8 m ρ c (Proc.devRef .tc main_v34) := W9_of_ne m ρ c main_v34 (by decide)
    _ = W7 m ρ c (Proc.devRef .tc main_v34) := StableHlo.after_of_forall_not_mem (b := Proc.devRef .tc main_v34) _ _ (List.forall_iff_forall_mem.mp (by not_written))
    _ = W6 m ρ c (Proc.devRef .tc main_v34) := W7_of_ne m ρ c main_v34 (by decide)
    _ = W5 m ρ c (Proc.devRef .tc main_v34) := W6_of_ne m ρ c main_v34 (by decide)
    _ = W4 m ρ c (Proc.devRef .tc main_v34) := StableHlo.after_of_forall_not_mem (b := Proc.devRef .tc main_v34) _ _ (List.forall_iff_forall_mem.mp (by not_written))
    _ = W3 m ρ c (Proc.devRef .tc main_v34) := W4_of_ne m ρ c main_v34 (by decide)
    _ = val_main_v34 (F := Ideal) (atLaunch m c main_arg1) (atLaunch m c main_arg2) := weights_at_entry m ρ c

/-! ## Layer 1 -/

/-- After projection region 0: the layer's input features times its weights. -/
theorem projected1 : W4 m ρ c (Proc.devRef .tc main_v35) = val_main_v35 (F := Ideal) (atLaunch m c main_arg0) (atLaunch m c main_arg4) := by
  rw [show W4 m ρ c (Proc.devRef .tc main_v35) = (dat0 (V3 m ρ) c).arrAt 2 cfg0.N from W4_arr m ρ c 2,
    Project0.result (V3 m ρ) c, Cert.ReferenceIdeal.Stages.project1]
  exact congrArg₂ GcnSpec.nodesTimes (launch_arg0 m ρ c) (launch_arg4 m ρ c)

/-- After the host stretch: the rows mixed along the edges. -/
theorem mixed1 : W5 m ρ c (Proc.devRef .tc main_v48) = val_main_v48 (F := Ideal) (atLaunch m c main_arg0) (atLaunch m c main_arg1) (atLaunch m c main_arg2) (atLaunch m c main_arg4) := by
  show StableHlo.after hostOps1 (W4 m ρ c) (Proc.devRef .tc main_v48) = _
  dsimp only [hostOps1]
  after_results_simp
  rw [projected1 m ρ c, weights_at4 m ρ c, sources_at4 m ρ c, targets_at4 m ρ c]
  rfl

/-- The bias laid out as a row, at the normalisation region's entry. -/
theorem row1_bias (q : Fin 128) : V5 m ρ c main_v49 (ix2 (0 : Fin 1) q) = (atLaunch m c main_arg5 : GcnSpec.Column) (ix1 q) := by
  show StableHlo.after hostOps1 (W4 m ρ c) (Proc.devRef .tc main_v49) (ix2 (0 : Fin 1) q) = _
  dsimp only [hostOps1]
  after_results_simp
  rw [keep4_arg5 m ρ c]
  exact shapeCast_apply _ _ (ix2 (0 : Fin 1) q) (ix1 q) (by rw [Shape.rowMajor_val_one, Shape.rowMajor_val_two]; show q.val = (0 : Fin 1).val * 128 + q.val; simp)

/-- The scale laid out as a row, at the normalisation region's entry. -/
theorem row1_scale (q : Fin 128) : V5 m ρ c main_v50 (ix2 (0 : Fin 1) q) = (atLaunch m c main_arg6 : GcnSpec.Column) (ix1 q) := by
  show StableHlo.after hostOps1 (W4 m ρ c) (Proc.devRef .tc main_v50) (ix2 (0 : Fin 1) q) = _
  dsimp only [hostOps1]
  after_results_simp
  rw [keep4_arg6 m ρ c]
  exact shapeCast_apply _ _ (ix2 (0 : Fin 1) q) (ix1 q) (by rw [Shape.rowMajor_val_one, Shape.rowMajor_val_two]; show q.val = (0 : Fin 1).val * 128 + q.val; simp)

/-- The shift laid out as a row, at the normalisation region's entry. -/
theorem row1_shift (q : Fin 128) : V5 m ρ c main_v51 (ix2 (0 : Fin 1) q) = (atLaunch m c main_arg7 : GcnSpec.Column) (ix1 q) := by
  show StableHlo.after hostOps1 (W4 m ρ c) (Proc.devRef .tc main_v51) (ix2 (0 : Fin 1) q) = _
  dsimp only [hostOps1]
  after_results_simp
  rw [keep4_arg7 m ρ c]
  exact shapeCast_apply _ _ (ix2 (0 : Fin 1) q) (ix1 q) (by rw [Shape.rowMajor_val_one, Shape.rowMajor_val_two]; show q.val = (0 : Fin 1).val * 128 + q.val; simp)

/-- The mean laid out as a row, at the normalisation region's entry. -/
theorem row1_mean (q : Fin 128) : V5 m ρ c main_v52 (ix2 (0 : Fin 1) q) = (atLaunch m c main_arg8 : GcnSpec.Column) (ix1 q) := by
  show StableHlo.after hostOps1 (W4 m ρ c) (Proc.devRef .tc main_v52) (ix2 (0 : Fin 1) q) = _
  dsimp only [hostOps1]
  after_results_simp
  rw [keep4_arg8 m ρ c]
  exact shapeCast_apply _ _ (ix2 (0 : Fin 1) q) (ix1 q) (by rw [Shape.rowMajor_val_one, Shape.rowMajor_val_two]; show q.val = (0 : Fin 1).val * 128 + q.val; simp)

/-- The variance laid out as a row, at the normalisation region's entry. -/
theorem row1_variance (q : Fin 128) : V5 m ρ c main_v53 (ix2 (0 : Fin 1) q) = (atLaunch m c main_arg9 : GcnSpec.Column) (ix1 q) := by
  show StableHlo.after hostOps1 (W4 m ρ c) (Proc.devRef .tc main_v53) (ix2 (0 : Fin 1) q) = _
  dsimp only [hostOps1]
  after_results_simp
  rw [keep4_arg9 m ρ c]
  exact shapeCast_apply _ _ (ix2 (0 : Fin 1) q) (ix1 q) (by rw [Shape.rowMajor_val_one, Shape.rowMajor_val_two]; show q.val = (0 : Fin 1).val * 128 + q.val; simp)

/-- After normalisation region 1: the layer's output. -/
theorem normalised1 : W6 m ρ c (Proc.devRef .tc main_v54) = val_main_v67 (F := Ideal) (atLaunch m c main_arg0) (atLaunch m c main_arg1) (atLaunch m c main_arg2) (atLaunch m c main_arg4) (atLaunch m c main_arg5) (atLaunch m c main_arg6) (atLaunch m c main_arg7) (atLaunch m c main_arg8) (atLaunch m c main_arg9) := by
  rw [show W6 m ρ c (Proc.devRef .tc main_v54) = (dat1 (V5 m ρ) c).arrAt 6 cfg1.N from W6_arr m ρ c 6,
    Normalise1.result (V5 m ρ) c (atLaunch m c main_arg5) (atLaunch m c main_arg6) (atLaunch m c main_arg7) (atLaunch m c main_arg8) (atLaunch m c main_arg9)
      (row1_bias m ρ c) (row1_scale m ρ c) (row1_shift m ρ c) (row1_mean m ρ c) (row1_variance m ρ c),
    Cert.ReferenceIdeal.Stages.normalise1]
  exact congrArg (fun z => GcnSpec.normClip z (atLaunch m c main_arg5) (atLaunch m c main_arg6) (atLaunch m c main_arg7) (atLaunch m c main_arg8) (atLaunch m c main_arg9)) (mixed1 m ρ c)

/-! ## Layer 2 -/

/-- After projection region 2: the layer's input features times its weights. -/
theorem projected2 : W7 m ρ c (Proc.devRef .tc main_v55) = val_main_v68 (F := Ideal) (atLaunch m c main_arg0) (atLaunch m c main_arg1) (atLaunch m c main_arg2) (atLaunch m c main_arg4) (atLaunch m c main_arg5) (atLaunch m c main_arg6) (atLaunch m c main_arg7) (atLaunch m c main_arg8) (atLaunch m c main_arg9) (atLaunch m c main_arg10) := by
  rw [show W7 m ρ c (Proc.devRef .tc main_v55) = (dat2 (V6 m ρ) c).arrAt 2 cfg2.N from W7_arr m ρ c 2,
    Project2.result (V6 m ρ) c, Cert.ReferenceIdeal.Stages.project2]
  exact congrArg₂ GcnSpec.nodesTimes (normalised1 m ρ c) (keep6_arg10 m ρ c)

/-- After the host stretch: the rows mixed along the edges. -/
theorem mixed2 : W8 m ρ c (Proc.devRef .tc main_v68) = val_main_v81 (F := Ideal) (atLaunch m c main_arg0) (atLaunch m c main_arg1) (atLaunch m c main_arg2) (atLaunch m c main_arg4) (atLaunch m c main_arg5) (atLaunch m c main_arg6) (atLaunch m c main_arg7) (atLaunch m c main_arg8) (atLaunch m c main_arg9) (atLaunch m c main_arg10) := by
  show StableHlo.after hostOps3 (W7 m ρ c) (Proc.devRef .tc main_v68) = _
  dsimp only [hostOps3]
  after_results_simp
  rw [projected2 m ρ c, weights_at7 m ρ c, sources_at7 m ρ c, targets_at7 m ρ c]
  rfl

/-- The bias laid out as a row, at the normalisation region's entry. -/
theorem row2_bias (q : Fin 128) : V8 m ρ c main_v69 (ix2 (0 : Fin 1) q) = (atLaunch m c main_arg11 : GcnSpec.Column) (ix1 q) := by
  show StableHlo.after hostOps3 (W7 m ρ c) (Proc.devRef .tc main_v69) (ix2 (0 : Fin 1) q) = _
  dsimp only [hostOps3]
  after_results_simp
  rw [keep7_arg11 m ρ c]
  exact shapeCast_apply _ _ (ix2 (0 : Fin 1) q) (ix1 q) (by rw [Shape.rowMajor_val_one, Shape.rowMajor_val_two]; show q.val = (0 : Fin 1).val * 128 + q.val; simp)

/-- The scale laid out as a row, at the normalisation region's entry. -/
theorem row2_scale (q : Fin 128) : V8 m ρ c main_v70 (ix2 (0 : Fin 1) q) = (atLaunch m c main_arg12 : GcnSpec.Column) (ix1 q) := by
  show StableHlo.after hostOps3 (W7 m ρ c) (Proc.devRef .tc main_v70) (ix2 (0 : Fin 1) q) = _
  dsimp only [hostOps3]
  after_results_simp
  rw [keep7_arg12 m ρ c]
  exact shapeCast_apply _ _ (ix2 (0 : Fin 1) q) (ix1 q) (by rw [Shape.rowMajor_val_one, Shape.rowMajor_val_two]; show q.val = (0 : Fin 1).val * 128 + q.val; simp)

/-- The shift laid out as a row, at the normalisation region's entry. -/
theorem row2_shift (q : Fin 128) : V8 m ρ c main_v71 (ix2 (0 : Fin 1) q) = (atLaunch m c main_arg13 : GcnSpec.Column) (ix1 q) := by
  show StableHlo.after hostOps3 (W7 m ρ c) (Proc.devRef .tc main_v71) (ix2 (0 : Fin 1) q) = _
  dsimp only [hostOps3]
  after_results_simp
  rw [keep7_arg13 m ρ c]
  exact shapeCast_apply _ _ (ix2 (0 : Fin 1) q) (ix1 q) (by rw [Shape.rowMajor_val_one, Shape.rowMajor_val_two]; show q.val = (0 : Fin 1).val * 128 + q.val; simp)

/-- The mean laid out as a row, at the normalisation region's entry. -/
theorem row2_mean (q : Fin 128) : V8 m ρ c main_v72 (ix2 (0 : Fin 1) q) = (atLaunch m c main_arg14 : GcnSpec.Column) (ix1 q) := by
  show StableHlo.after hostOps3 (W7 m ρ c) (Proc.devRef .tc main_v72) (ix2 (0 : Fin 1) q) = _
  dsimp only [hostOps3]
  after_results_simp
  rw [keep7_arg14 m ρ c]
  exact shapeCast_apply _ _ (ix2 (0 : Fin 1) q) (ix1 q) (by rw [Shape.rowMajor_val_one, Shape.rowMajor_val_two]; show q.val = (0 : Fin 1).val * 128 + q.val; simp)

/-- The variance laid out as a row, at the normalisation region's entry. -/
theorem row2_variance (q : Fin 128) : V8 m ρ c main_v73 (ix2 (0 : Fin 1) q) = (atLaunch m c main_arg15 : GcnSpec.Column) (ix1 q) := by
  show StableHlo.after hostOps3 (W7 m ρ c) (Proc.devRef .tc main_v73) (ix2 (0 : Fin 1) q) = _
  dsimp only [hostOps3]
  after_results_simp
  rw [keep7_arg15 m ρ c]
  exact shapeCast_apply _ _ (ix2 (0 : Fin 1) q) (ix1 q) (by rw [Shape.rowMajor_val_one, Shape.rowMajor_val_two]; show q.val = (0 : Fin 1).val * 128 + q.val; simp)

/-- After normalisation region 3: the layer's output. -/
theorem normalised2 : W9 m ρ c (Proc.devRef .tc main_v74) = val_main_v100 (F := Ideal) (atLaunch m c main_arg0) (atLaunch m c main_arg1) (atLaunch m c main_arg2) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) (atLaunch m c main_arg15) := by
  rw [show W9 m ρ c (Proc.devRef .tc main_v74) = (dat3 (V8 m ρ) c).arrAt 6 cfg3.N from W9_arr m ρ c 6,
    Normalise3.result (V8 m ρ) c (atLaunch m c main_arg11) (atLaunch m c main_arg12) (atLaunch m c main_arg13) (atLaunch m c main_arg14) (atLaunch m c main_arg15)
      (row2_bias m ρ c) (row2_scale m ρ c) (row2_shift m ρ c) (row2_mean m ρ c) (row2_variance m ρ c),
    Cert.ReferenceIdeal.Stages.normalise2]
  exact congrArg (fun z => GcnSpec.normClip z (atLaunch m c main_arg11) (atLaunch m c main_arg12) (atLaunch m c main_arg13) (atLaunch m c main_arg14) (atLaunch m c main_arg15)) (mixed2 m ρ c)

/-! ## Layer 3 -/

/-- After projection region 4: the layer's input features times its weights. -/
theorem projected3 : W10 m ρ c (Proc.devRef .tc main_v75) = val_main_v101 (F := Ideal) (atLaunch m c main_arg0) (atLaunch m c main_arg1) (atLaunch m c main_arg2) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) (atLaunch m c main_arg15) (atLaunch m c main_arg16) := by
  rw [show W10 m ρ c (Proc.devRef .tc main_v75) = (dat4 (V9 m ρ) c).arrAt 2 cfg4.N from W10_arr m ρ c 2,
    Project4.result (V9 m ρ) c, Cert.ReferenceIdeal.Stages.project3]
  exact congrArg₂ GcnSpec.nodesTimes (normalised2 m ρ c) (keep9_arg16 m ρ c)

/-- After the host stretch: the rows mixed along the edges. -/
theorem mixed3 : W11 m ρ c (Proc.devRef .tc main_v88) = val_main_v114 (F := Ideal) (atLaunch m c main_arg0) (atLaunch m c main_arg1) (atLaunch m c main_arg2) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) (atLaunch m c main_arg15) (atLaunch m c main_arg16) := by
  show StableHlo.after hostOps5 (W10 m ρ c) (Proc.devRef .tc main_v88) = _
  dsimp only [hostOps5]
  after_results_simp
  rw [projected3 m ρ c, weights_at10 m ρ c, sources_at10 m ρ c, targets_at10 m ρ c]
  rfl

/-- The bias laid out as a row, at the normalisation region's entry. -/
theorem row3_bias (q : Fin 128) : V11 m ρ c main_v89 (ix2 (0 : Fin 1) q) = (atLaunch m c main_arg17 : GcnSpec.Column) (ix1 q) := by
  show StableHlo.after hostOps5 (W10 m ρ c) (Proc.devRef .tc main_v89) (ix2 (0 : Fin 1) q) = _
  dsimp only [hostOps5]
  after_results_simp
  rw [keep10_arg17 m ρ c]
  exact shapeCast_apply _ _ (ix2 (0 : Fin 1) q) (ix1 q) (by rw [Shape.rowMajor_val_one, Shape.rowMajor_val_two]; show q.val = (0 : Fin 1).val * 128 + q.val; simp)

/-- The scale laid out as a row, at the normalisation region's entry. -/
theorem row3_scale (q : Fin 128) : V11 m ρ c main_v90 (ix2 (0 : Fin 1) q) = (atLaunch m c main_arg18 : GcnSpec.Column) (ix1 q) := by
  show StableHlo.after hostOps5 (W10 m ρ c) (Proc.devRef .tc main_v90) (ix2 (0 : Fin 1) q) = _
  dsimp only [hostOps5]
  after_results_simp
  rw [keep10_arg18 m ρ c]
  exact shapeCast_apply _ _ (ix2 (0 : Fin 1) q) (ix1 q) (by rw [Shape.rowMajor_val_one, Shape.rowMajor_val_two]; show q.val = (0 : Fin 1).val * 128 + q.val; simp)

/-- The shift laid out as a row, at the normalisation region's entry. -/
theorem row3_shift (q : Fin 128) : V11 m ρ c main_v91 (ix2 (0 : Fin 1) q) = (atLaunch m c main_arg19 : GcnSpec.Column) (ix1 q) := by
  show StableHlo.after hostOps5 (W10 m ρ c) (Proc.devRef .tc main_v91) (ix2 (0 : Fin 1) q) = _
  dsimp only [hostOps5]
  after_results_simp
  rw [keep10_arg19 m ρ c]
  exact shapeCast_apply _ _ (ix2 (0 : Fin 1) q) (ix1 q) (by rw [Shape.rowMajor_val_one, Shape.rowMajor_val_two]; show q.val = (0 : Fin 1).val * 128 + q.val; simp)

/-- The mean laid out as a row, at the normalisation region's entry. -/
theorem row3_mean (q : Fin 128) : V11 m ρ c main_v92 (ix2 (0 : Fin 1) q) = (atLaunch m c main_arg20 : GcnSpec.Column) (ix1 q) := by
  show StableHlo.after hostOps5 (W10 m ρ c) (Proc.devRef .tc main_v92) (ix2 (0 : Fin 1) q) = _
  dsimp only [hostOps5]
  after_results_simp
  rw [keep10_arg20 m ρ c]
  exact shapeCast_apply _ _ (ix2 (0 : Fin 1) q) (ix1 q) (by rw [Shape.rowMajor_val_one, Shape.rowMajor_val_two]; show q.val = (0 : Fin 1).val * 128 + q.val; simp)

/-- The variance laid out as a row, at the normalisation region's entry. -/
theorem row3_variance (q : Fin 128) : V11 m ρ c main_v93 (ix2 (0 : Fin 1) q) = (atLaunch m c main_arg21 : GcnSpec.Column) (ix1 q) := by
  show StableHlo.after hostOps5 (W10 m ρ c) (Proc.devRef .tc main_v93) (ix2 (0 : Fin 1) q) = _
  dsimp only [hostOps5]
  after_results_simp
  rw [keep10_arg21 m ρ c]
  exact shapeCast_apply _ _ (ix2 (0 : Fin 1) q) (ix1 q) (by rw [Shape.rowMajor_val_one, Shape.rowMajor_val_two]; show q.val = (0 : Fin 1).val * 128 + q.val; simp)

/-- After normalisation region 5: the layer's output. -/
theorem normalised3 : W12 m ρ c (Proc.devRef .tc main_v94) = val_main_v133 (F := Ideal) (atLaunch m c main_arg0) (atLaunch m c main_arg1) (atLaunch m c main_arg2) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) (atLaunch m c main_arg15) (atLaunch m c main_arg16) (atLaunch m c main_arg17) (atLaunch m c main_arg18) (atLaunch m c main_arg19) (atLaunch m c main_arg20) (atLaunch m c main_arg21) := by
  rw [show W12 m ρ c (Proc.devRef .tc main_v94) = (dat5 (V11 m ρ) c).arrAt 6 cfg5.N from W12_arr m ρ c 6,
    Normalise5.result (V11 m ρ) c (atLaunch m c main_arg17) (atLaunch m c main_arg18) (atLaunch m c main_arg19) (atLaunch m c main_arg20) (atLaunch m c main_arg21)
      (row3_bias m ρ c) (row3_scale m ρ c) (row3_shift m ρ c) (row3_mean m ρ c) (row3_variance m ρ c),
    Cert.ReferenceIdeal.Stages.normalise3]
  exact congrArg (fun z => GcnSpec.normClip z (atLaunch m c main_arg17) (atLaunch m c main_arg18) (atLaunch m c main_arg19) (atLaunch m c main_arg20) (atLaunch m c main_arg21)) (mixed3 m ρ c)

/-! ## Pooling and read-out -/

/-- After the last host stretch: the rows averaged per graph. -/
theorem pooled : W13 m ρ c (Proc.devRef .tc main_v106) = val_main_v145 (F := Ideal) (atLaunch m c main_arg0) (atLaunch m c main_arg1) (atLaunch m c main_arg2) (atLaunch m c main_arg3) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) (atLaunch m c main_arg15) (atLaunch m c main_arg16) (atLaunch m c main_arg17) (atLaunch m c main_arg18) (atLaunch m c main_arg19) (atLaunch m c main_arg20) (atLaunch m c main_arg21) := by
  show StableHlo.after hostOps6 (W12 m ρ c) (Proc.devRef .tc main_v106) = _
  dsimp only [hostOps6]
  after_results_simp
  rw [normalised3 m ρ c, keep12_arg3 m ρ c]
  rfl

/-- The read-out bias laid out as a row. -/
theorem row_readout (r : Fin 2) : V13 m ρ c main_v107 (ix2 (0 : Fin 1) r) = (atLaunch m c main_arg23 : (⟨1, ![2]⟩ : Shape).Idx → Elt Ideal .f32) (ix1 r) := by
  show StableHlo.after hostOps6 (W12 m ρ c) (Proc.devRef .tc main_v107) (ix2 (0 : Fin 1) r) = _
  dsimp only [hostOps6]
  after_results_simp
  rw [keep12_arg23 m ρ c]
  exact shapeCast_apply _ _ (ix2 (0 : Fin 1) r) (ix1 r) (by rw [Shape.rowMajor_val_one, Shape.rowMajor_val_two]; show r.val = (0 : Fin 1).val * 2 + r.val; simp)

/-- The result array at the return is the reference's result term of the arguments as launched. -/
theorem result : W14 m ρ c (Proc.devRef .tc main_v108) = val_main_v149 (F := Ideal) (atLaunch m c main_arg0) (atLaunch m c main_arg1) (atLaunch m c main_arg2) (atLaunch m c main_arg3) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) (atLaunch m c main_arg15) (atLaunch m c main_arg16) (atLaunch m c main_arg17) (atLaunch m c main_arg18) (atLaunch m c main_arg19) (atLaunch m c main_arg20) (atLaunch m c main_arg21) (atLaunch m c main_arg22) (atLaunch m c main_arg23) := by
  rw [show W14 m ρ c (Proc.devRef .tc main_v108) = (dat6 (V13 m ρ) c).arrAt 3 cfg6.N from W14_arr m ρ c 3,
    ReadOut.result (V13 m ρ) c (atLaunch m c main_arg23) (row_readout m ρ c), Cert.ReferenceIdeal.Stages.readout]
  exact congrArg₂ (fun p w => GcnSpec.readOut p w (atLaunch m c main_arg23)) (pooled m ρ c) (keep13_arg22 m ρ c)

end Cert.KernelIdeal.Fold

end
-- ==== Proof.lean ====
/-
  The certificate's claim for a three-layer graph-convolution network with per-graph mean pooling and a linear read-out.

  Both programs compute, from the edge list, one symmetric normalisation weight per edge; then three times over they
  multiply the node features by a weight matrix, mix rows along the edges with those weights, add a bias, normalise each
  column by running statistics, scale, shift and clip at zero; then they average rows per graph and apply a last matrix
  and bias. The kernel does the dense steps (the three products, the three normalisations, the read-out) in seven tiled
  regions and everything else by the same host operations as the reference. On the extended reals a change of float
  format is the identity and a tiled product into a zero accumulator is the same sum as the whole product, so each
  region leaves exactly the reference's stage; equal operands through equal operations then give equal results, with no
  law that would need the inputs finite.

  The frames of the two kernel programs are the generated ones; the reference's frame is its run with the value dropped;
  nothing was rewritten by the idealization, so that conjunct is trivial; the value conjunct joins the kernel's run,
  read at the result array, to the reference's run.
-/
import proofs.«115828_j12532714570571_1_alg».proof.Defs
import proofs.«115828_j12532714570571_1_alg».proof.Proof.Gen.Kernel
import proofs.«115828_j12532714570571_1_alg».proof.Proof.Gen.Kernel.Frame
import proofs.«115828_j12532714570571_1_alg».proof.Proof.Gen.KernelIdeal
import proofs.«115828_j12532714570571_1_alg».proof.Proof.Gen.KernelIdeal.Frame
import proofs.«115828_j12532714570571_1_alg».proof.Proof.Gen.ReferenceIdeal
import proofs.«115828_j12532714570571_1_alg».proof.Proof.Gen.ReferenceIdeal.Run
import proofs.«115828_j12532714570571_1_alg».proof.Proof.Gen.ReferenceIdeal.Read
import proofs.«115828_j12532714570571_1_alg».proof.Proof.Gen.Pre_finite_inputs
import proofs.«115828_j12532714570571_1_alg».proof.Proof.BoundaryRun
import proofs.«115828_j12532714570571_1_alg».proof.Proof.Fold
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the idealized kernel's result array and the reference's are the same
    function of the arguments: the reference's last stage. -/
theorem algebraic : Cert.algebraic_KernelIdeal_ReferenceIdeal := by
  intro m ρ m' ρ' _ hagree
  refine ⟨fun c => Cert.KernelIdeal.Gen.W14 m ρ c (Proc.devRef .tc Cert.KernelIdeal.main_v108), Cert.KernelIdeal.Boundary.run_result m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ := hagree c
  rw [Cert.ReferenceIdeal.Read.val_main_v149_eq, h0, h1, h2, h3, h4, h5, h6, h7, h8, h9, h10, h11, h12, h13, h14, h15, h16, h17, h18, h19, h20, h21, h22, h23]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
